-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x384 : Shape := ⟨3, ![4096, 49, 384]⟩
abbrev S4x49x49 : Shape := ⟨3, ![4, 49, 49]⟩
abbrev S64x49x49 : Shape := ⟨3, ![64, 49, 49]⟩
abbrev S2 : Shape := ⟨1, ![2]⟩
abbrev S_ : Shape := ⟨0, ![]⟩

class Facts : Prop where
  bcast_S_S4096x49x384 : S_.BroadcastsInDim S4096x49x384 (![] : Fin 0 → Fin S4096x49x384.rank)
  reducesTo_S4096x49x384_S_d0_1_2 : S4096x49x384.ReducesTo [0, 1, 2] S_
  h_S_ : 0 < S_.numel
  bcast_S_S4x49x49 : S_.BroadcastsInDim S4x49x49 (![] : Fin 0 → Fin S4x49x49.rank)
  reducesTo_S4x49x49_S_d0_1_2 : S4x49x49.ReducesTo [0, 1, 2] S_
  bcast_S_S64x49x49 : S_.BroadcastsInDim S64x49x49 (![] : Fin 0 → Fin S64x49x49.rank)
  reducesTo_S64x49x49_S_d0_1_2 : S64x49x49.ReducesTo [0, 1, 2] S_

variable [Facts]

def fn {F : FTy → Type} [FloatOps F] (main_arg0 : FVec F S4096x49x384 .f32) (main_arg1 : FVec F S4x49x49 .f32) (main_arg2 : FVec F S64x49x49 .f32) (main_arg3 : IVec S2 32) : IVec S_ 1 :=
  let main_v0 : FVec F S4096x49x384 .f32 := Host.absf main_arg0
  let main_cst : FVec F S_ .f32 := constant S_ .f32 0x7F800000#32
  let main_v1 : FVec F S4096x49x384 .f32 := broadcastInDim S4096x49x384 ![] bcast_S_S4096x49x384 main_cst
  let main_v2 : IVec S4096x49x384 1 := cmpf .olt main_v0 main_v1
  let main_c : IVec S_ 1 := constantI S_ 1 1#1
  let main_v3 : IVec S_ 1 := (fun x v => Host.reduce IntOp.andi x v reducesTo_S4096x49x384_S_d0_1_2 h_S_) main_v2 main_c
  let main_v4 : FVec F S4x49x49 .f32 := Host.absf main_arg1
  let main_cst_0 : FVec F S_ .f32 := constant S_ .f32 0x7F800000#32
  let main_v5 : FVec F S4x49x49 .f32 := broadcastInDim S4x49x49 ![] bcast_S_S4x49x49 main_cst_0
  let main_v6 : IVec S4x49x49 1 := cmpf .olt main_v4 main_v5
  let main_c_1 : IVec S_ 1 := constantI S_ 1 1#1
  let main_v7 : IVec S_ 1 := (fun x v => Host.reduce IntOp.andi x v reducesTo_S4x49x49_S_d0_1_2 h_S_) main_v6 main_c_1
  let main_v8 : IVec S_ 1 := andi main_v3 main_v7
  let main_v9 : FVec F S64x49x49 .f32 := Host.absf main_arg2
  let main_cst_2 : FVec F S_ .f32 := constant S_ .f32 0x7F800000#32
  let main_v10 : FVec F S64x49x49 .f32 := broadcastInDim S64x49x49 ![] bcast_S_S64x49x49 main_cst_2
  let main_v11 : IVec S64x49x49 1 := cmpf .olt main_v9 main_v10
  let main_c_3 : IVec S_ 1 := constantI S_ 1 1#1
  let main_v12 : IVec S_ 1 := (fun x v => Host.reduce IntOp.andi x v reducesTo_S64x49x49_S_d0_1_2 h_S_) main_v11 main_c_3
  let main_v13 : IVec S_ 1 := andi main_v8 main_v12
  main_v13
-- ==== Kernel.lean ====
abbrev S4096x49x384 : Shape := ⟨3, ![4096, 49, 384]⟩
abbrev S4x49x49 : Shape := ⟨3, ![4, 49, 49]⟩
abbrev S64x49x49 : Shape := ⟨3, ![64, 49, 49]⟩
abbrev S2 : Shape := ⟨1, ![2]⟩
abbrev S4096x49x128 : Shape := ⟨3, ![4096, 49, 128]⟩
abbrev S64x49x384 : Shape := ⟨3, ![64, 49, 384]⟩
abbrev S64x49x128 : Shape := ⟨3, ![64, 49, 128]⟩
abbrev S64x49x32 : Shape := ⟨3, ![64, 49, 32]⟩
abbrev S1x49x49 : Shape := ⟨3, ![1, 49, 49]⟩
abbrev S49x49 : Shape := ⟨2, ![49, 49]⟩
abbrev S64x49 : Shape := ⟨2, ![64, 49]⟩
abbrev S64x49x1 : Shape := ⟨3, ![64, 49, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x49x384, .f32⟩
  | .hbm, ⟨1, _⟩ => ⟨S4x49x49, .f32⟩
  | .hbm, ⟨2, _⟩ => ⟨S64x49x49, .f32⟩
  | .hbm, ⟨3, _⟩ => ⟨S2, .i32⟩
  | .hbm, ⟨4, _⟩ => ⟨S4096x49x128, .f32⟩
  | .local _ .vmem, ⟨0, _⟩ => ⟨S64x49x384, .f32⟩
  | .local _ .vmem, ⟨1, _⟩ => ⟨S64x49x384, .f32⟩
  | .local _ .vmem, ⟨2, _⟩ => ⟨S4x49x49, .f32⟩
  | .local _ .vmem, ⟨3, _⟩ => ⟨S64x49x49, .f32⟩
  | .local _ .vmem, ⟨4, _⟩ => ⟨S64x49x128, .f32⟩
  | .local _ .vmem, ⟨5, _⟩ => ⟨S64x49x128, .f32⟩
  | _, _ => ⟨S4096x49x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x49x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x49x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x49x49 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x49x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x49x384_S64x49x128_0_0_0 : ∀ a, (![0, 0, 0] : Fin 3 → Nat) a + S64x49x128.size a ≤ S64x49x384.size a
  h_S64x49x128 : 0 < S64x49x128.numel
  inb_S64x49x384_S64x49x128_0_0_128 : ∀ a, (![0, 0, 128] : Fin 3 → Nat) a + S64x49x128.size a ≤ S64x49x384.size a
  inb_S64x49x384_S64x49x128_0_0_256 : ∀ a, (![0, 0, 256] : Fin 3 → Nat) a + S64x49x128.size a ≤ S64x49x384.size a
  inb_S64x49x49_S64x49x49_0_0_0 : ∀ a, (![0, 0, 0] : Fin 3 → Nat) a + S64x49x49.size a ≤ S64x49x49.size a
  h_S64x49x49 : 0 < S64x49x49.numel
  slices_S64x49x128_o0_0_0_S64x49x32 : S64x49x128.Slices ![0, 0, 0] S64x49x32
  bitsLt_bf16_f32 : FTy.bits .bf16 < FTy.bits .f32
  inb_S4x49x49_S1x49x49_0_0_0 : ∀ a, (![0, 0, 0] : Fin 3 → Nat) a + S1x49x49.size a ≤ S4x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S64x49x49 : S1x49x49.Broadcasts S64x49x49
  reduces_S64x49x49_S64x49 : S64x49x49.Reduces [2] S64x49
  shapeCasts_S64x49_S64x49x1 : S64x49.ShapeCasts S64x49x1
  broadcasts_S64x49x1_S64x49x49 : S64x49x1.Broadcasts S64x49x49
  slices_S64x49x128_o0_0_32_S64x49x32 : S64x49x128.Slices ![0, 0, 32] S64x49x32
  inb_S4x49x49_S1x49x49_1_0_0 : ∀ a, (![1, 0, 0] : Fin 3 → Nat) a + S1x49x49.size a ≤ S4x49x49.size a
  slices_S64x49x128_o0_0_64_S64x49x32 : S64x49x128.Slices ![0, 0, 64] S64x49x32
  inb_S4x49x49_S1x49x49_2_0_0 : ∀ a, (![2, 0, 0] : Fin 3 → Nat) a + S1x49x49.size a ≤ S4x49x49.size a
  slices_S64x49x128_o0_0_96_S64x49x32 : S64x49x128.Slices ![0, 0, 96] S64x49x32
  inb_S4x49x49_S1x49x49_3_0_0 : ∀ a, (![3, 0, 0] : Fin 3 → Nat) a + S1x49x49.size a ≤ S4x49x49.size a
  concatenates_S64x49x32_S64x49x32_S64x49x32_S64x49x32_S64x49x128_d2 : Shape.Concatenates [S64x49x32, S64x49x32, S64x49x32, S64x49x32] S64x49x128 2
  inb_S64x49x128_S64x49x128_0_0_0 : ∀ a, (![0, 0, 0] : Fin 3 → Nat) a + S64x49x128.size a ≤ S64x49x128.size a
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x384.size a ≤ S4096x49x384.size a
  hwx0_0 : ∀ i : grid0.Coords, EltTy.bits .f32 = 32 ∨ (Rect.block (s := S4096x49x384) S64x49x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x49x49.size a ≤ S4x49x49.size a
  hwx0_1 : ∀ i : grid0.Coords, EltTy.bits .f32 = 32 ∨ (Rect.block (s := S4x49x49) S4x49x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x49x49.size a ≤ S64x49x49.size a
  hwx0_2 : ∀ i : grid0.Coords, EltTy.bits .f32 = 32 ∨ (Rect.block (s := S64x49x49) S64x49x49.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x49x128.size a ≤ S4096x49x128.size a
  hwx0_3 : ∀ i : grid0.Coords, EltTy.bits .f32 = 32 ∨ (Rect.block (s := S4096x49x128) S64x49x128.size (cc0_transform_3 i) (hinb0_3 i)).WholeWords (EltTy.packing .f32)

variable [Facts₀]

def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf

abbrev win0_0 : Pipeline.Window sig grid0 :=
  Pipeline.Window.ofSpec (Memref.whole main_arg0) S64x49x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x49x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x49x49.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x49x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x49x384 : Shape := ⟨3, ![4096, 49, 384]⟩
abbrev S4x49x49 : Shape := ⟨3, ![4, 49, 49]⟩
abbrev S64x49x49 : Shape := ⟨3, ![64, 49, 49]⟩
abbrev S2 : Shape := ⟨1, ![2]⟩
abbrev S4096x49x3x4x32 : Shape := ⟨5, ![4096, 49, 3, 4, 32]⟩
abbrev S3x4096x4x49x32 : Shape := ⟨5, ![3, 4096, 4, 49, 32]⟩
abbrev S1x4096x4x49x32 : Shape := ⟨5, ![1, 4096, 4, 49, 32]⟩
abbrev S4096x4x49x32 : Shape := ⟨4, ![4096, 4, 49, 32]⟩
abbrev S_ : Shape := ⟨0, ![]⟩
abbrev S4096x4x49x49 : Shape := ⟨4, ![4096, 4, 49, 49]⟩
abbrev S1x4x49x49 : Shape := ⟨4, ![1, 4, 49, 49]⟩
abbrev S64x64x4x49x49 : Shape := ⟨5, ![64, 64, 4, 49, 49]⟩
abbrev S1x64x1x49x49 : Shape := ⟨5, ![1, 64, 1, 49, 49]⟩
abbrev S4096x4x49 : Shape := ⟨3, ![4096, 4, 49]⟩
abbrev S4096x4x49x1 : Shape := ⟨4, ![4096, 4, 49, 1]⟩
abbrev S4096x49x4x32 : Shape := ⟨4, ![4096, 49, 4, 32]⟩
abbrev S4096x49x128 : Shape := ⟨3, ![4096, 49, 128]⟩

abbrev nBuf : Space → Nat
  | .hbm => 41
  | .vmem => 0
  | .smem => 0
  | _ => 0

abbrev bufTy : (tb : Table) → Fin (tcTables nBuf tb) → BufTy
  | .hbm, ⟨0, _⟩ => ⟨S4096x49x384, .f32⟩
  | .hbm, ⟨1, _⟩ => ⟨S4x49x49, .f32⟩
  | .hbm, ⟨2, _⟩ => ⟨S64x49x49, .f32⟩
  | .hbm, ⟨3, _⟩ => ⟨S2, .i32⟩
  | .hbm, ⟨4, _⟩ => ⟨S4096x49x3x4x32, .f32⟩
  | .hbm, ⟨5, _⟩ => ⟨S3x4096x4x49x32, .f32⟩
  | .hbm, ⟨6, _⟩ => ⟨S1x4096x4x49x32, .f32⟩
  | .hbm, ⟨7, _⟩ => ⟨S4096x4x49x32, .f32⟩
  | .hbm, ⟨8, _⟩ => ⟨S_, .f32⟩
  | .hbm, ⟨9, _⟩ => ⟨S4096x4x49x32, .f32⟩
  | .hbm, ⟨10, _⟩ => ⟨S4096x4x49x32, .f32⟩
  | .hbm, ⟨11, _⟩ => ⟨S1x4096x4x49x32, .f32⟩
  | .hbm, ⟨12, _⟩ => ⟨S4096x4x49x32, .f32⟩
  | .hbm, ⟨13, _⟩ => ⟨S1x4096x4x49x32, .f32⟩
  | .hbm, ⟨14, _⟩ => ⟨S4096x4x49x32, .f32⟩
  | .hbm, ⟨15, _⟩ => ⟨S4096x4x49x49, .f32⟩
  | .hbm, ⟨16, _⟩ => ⟨S1x4x49x49, .f32⟩
  | .hbm, ⟨17, _⟩ => ⟨S4096x4x49x49, .f32⟩
  | .hbm, ⟨18, _⟩ => ⟨S4096x4x49x49, .f32⟩
  | .hbm, ⟨19, _⟩ => ⟨S64x64x4x49x49, .f32⟩
  | .hbm, ⟨20, _⟩ => ⟨S1x64x1x49x49, .f32⟩
  | .hbm, ⟨21, _⟩ => ⟨S64x64x4x49x49, .f32⟩
  | .hbm, ⟨22, _⟩ => ⟨S64x64x4x49x49, .f32⟩
  | .hbm, ⟨23, _⟩ => ⟨S4096x4x49x49, .f32⟩
  | .hbm, ⟨24, _⟩ => ⟨S_, .f32⟩
  | .hbm, ⟨25, _⟩ => ⟨S4096x4x49, .f32⟩
  | .hbm, ⟨26, _⟩ => ⟨S_, .f32⟩
  | .hbm, ⟨27, _⟩ => ⟨S4096x4x49, .f32⟩
  | .hbm, ⟨28, _⟩ => ⟨S4096x4x49, .f32⟩
  | .hbm, ⟨29, _⟩ => ⟨S4096x4x49x1, .f32⟩
  | .hbm, ⟨30, _⟩ => ⟨S4096x4x49x49, .f32⟩
  | .hbm, ⟨31, _⟩ => ⟨S4096x4x49x49, .f32⟩
  | .hbm, ⟨32, _⟩ => ⟨S4096x4x49x49, .f32⟩
  | .hbm, ⟨33, _⟩ => ⟨S_, .f32⟩
  | .hbm, ⟨34, _⟩ => ⟨S4096x4x49, .f32⟩
  | .hbm, ⟨35, _⟩ => ⟨S4096x4x49x1, .f32⟩
  | .hbm, ⟨36, _⟩ => ⟨S4096x4x49x49, .f32⟩
  | .hbm, ⟨37, _⟩ => ⟨S4096x4x49x49, .f32⟩
  | .hbm, ⟨38, _⟩ => ⟨S4096x4x49x32, .f32⟩
  | .hbm, ⟨39, _⟩ => ⟨S4096x49x4x32, .f32⟩
  | .hbm, ⟨40, _⟩ => ⟨S4096x49x128, .f32⟩
  | _, _ => ⟨S4096x49x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  shapeCasts_S4096x49x384_S4096x49x3x4x32 : S4096x49x384.ShapeCasts S4096x49x3x4x32
  transposes_S4096x49x3x4x32_S3x4096x4x49x32_2_0_3_1_4 : S4096x49x3x4x32.Transposes [2, 0, 3, 1, 4] S3x4096x4x49x32
  slices_S3x4096x4x49x32_S1x4096x4x49x32_0_0_0_0_0 : S3x4096x4x49x32.Slices ![0, 0, 0, 0, 0] S1x4096x4x49x32
  shapeCasts_S1x4096x4x49x32_S4096x4x49x32 : S1x4096x4x49x32.ShapeCasts S4096x4x49x32
  bcast_S_S4096x4x49x32 : S_.BroadcastsInDim S4096x4x49x32 (![] : Fin 0 → Fin S4096x4x49x32.rank)
  slices_S3x4096x4x49x32_S1x4096x4x49x32_1_0_0_0_0 : S3x4096x4x49x32.Slices ![1, 0, 0, 0, 0] S1x4096x4x49x32
  slices_S3x4096x4x49x32_S1x4096x4x49x32_2_0_0_0_0 : S3x4096x4x49x32.Slices ![2, 0, 0, 0, 0] S1x4096x4x49x32
  bcast_S4x49x49_S1x4x49x49_1_2_3 : S4x49x49.BroadcastsInDim S1x4x49x49 (![1, 2, 3] : Fin 3 → Fin S1x4x49x49.rank)
  bcast_S1x4x49x49_S4096x4x49x49_0_1_2_3 : S1x4x49x49.BroadcastsInDim S4096x4x49x49 (![0, 1, 2, 3] : Fin 4 → Fin S4096x4x49x49.rank)
  shapeCasts_S4096x4x49x49_S64x64x4x49x49 : S4096x4x49x49.ShapeCasts S64x64x4x49x49
  bcast_S64x49x49_S1x64x1x49x49_1_3_4 : S64x49x49.BroadcastsInDim S1x64x1x49x49 (![1, 3, 4] : Fin 3 → Fin S1x64x1x49x49.rank)
  bcast_S1x64x1x49x49_S64x64x4x49x49_0_1_2_3_4 : S1x64x1x49x49.BroadcastsInDim S64x64x4x49x49 (![0, 1, 2, 3, 4] : Fin 5 → Fin S64x64x4x49x49.rank)
  shapeCasts_S64x64x4x49x49_S4096x4x49x49 : S64x64x4x49x49.ShapeCasts S4096x4x49x49
  reducesTo_S4096x4x49x49_S4096x4x49_d3 : S4096x4x49x49.ReducesTo [3] S4096x4x49
  h_S_ : 0 < S_.numel
  bcast_S_S4096x4x49 : S_.BroadcastsInDim S4096x4x49 (![] : Fin 0 → Fin S4096x4x49.rank)
  bcast_S4096x4x49_S4096x4x49x1_0_1_2 : S4096x4x49.BroadcastsInDim S4096x4x49x1 (![0, 1, 2] : Fin 3 → Fin S4096x4x49x1.rank)
  bcast_S4096x4x49x1_S4096x4x49x49_0_1_2_3 : S4096x4x49x1.BroadcastsInDim S4096x4x49x49 (![0, 1, 2, 3] : Fin 4 → Fin S4096x4x49x49.rank)
  transposes_S4096x4x49x32_S4096x49x4x32_0_2_1_3 : S4096x4x49x32.Transposes [0, 2, 1, 3] S4096x49x4x32
  shapeCasts_S4096x49x4x32_S4096x49x128 : S4096x49x4x32.ShapeCasts S4096x49x128
  dot_S4096x4x49x32_S4096x4x49x32_S4096x4x49x49_3_3_2_2_01_01_wf : DotDims.WF S4096x4x49x32 S4096x4x49x32 S4096x4x49x49 [3] [3] [2] [2] [0, 1] [0, 1]
  dot_S4096x4x49x49_S4096x4x49x32_S4096x4x49x32_3_2_2_3_01_01_wf : DotDims.WF S4096x4x49x49 S4096x4x49x32 S4096x4x49x32 [3] [2] [2] [3] [0, 1] [0, 1]

variable [Facts₀]

def dot_S4096x4x49x32_S4096x4x49x32_S4096x4x49x49_3_3_2_2_01_01 : DotDims S4096x4x49x32 S4096x4x49x32 S4096x4x49x49 where
  lhsContracting := [3]
  rhsContracting := [3]
  lhsNonContracting := [2]
  rhsNonContracting := [2]
  lhsBatch := [0, 1]
  rhsBatch := [0, 1]
  wf := dot_S4096x4x49x32_S4096x4x49x32_S4096x4x49x49_3_3_2_2_01_01_wf
def dot_S4096x4x49x49_S4096x4x49x32_S4096x4x49x32_3_2_2_3_01_01 : DotDims S4096x4x49x49 S4096x4x49x32 S4096x4x49x32 where
  lhsContracting := [3]
  rhsContracting := [2]
  lhsNonContracting := [2]
  rhsNonContracting := [3]
  lhsBatch := [0, 1]
  rhsBatch := [0, 1]
  wf := dot_S4096x4x49x49_S4096x4x49x32_S4096x4x49x32_3_2_2_3_01_01_wf

class Facts : Prop extends Facts₀ where

variable [Facts]
-- ==== Proof.Spec.lean ====
/-
  Windowed multi-head attention as ONE function of the three float argument arrays, entry by entry.

  The arrays: `x` of shape [4096, 49, 384] holds, for each of 4096 windows and each of 49 tokens, the token's query,
  key and value vectors side by side — columns 0..127 the queries, 128..255 the keys, 256..383 the values, each third
  split into 4 heads of 32 columns; `mk` of shape [4, 49, 49] is a bias per head; `rt` of shape [64, 49, 49] is a bias
  per window position inside its image (window `b` sits at position `b mod 64`).

  For window `b`, head `h`, query token `q` and key token `k` the LOGIT is
      (Σ_d (x[b,q,32h+d] · c) · x[b,k,128+32h+d] + mk[h,q,k]) + rt[b mod 64,q,k]
  with `c` the f32 word 0x3E3504F3 (the logit scale, the same word in both programs, never evaluated). A row of 49
  logits is turned into softmax WEIGHTS — each logit less the row's maximum, exponentiated, divided by the sum of the
  row's exponentials — and the output at (b, q, 32h+d) is the weights dotted with the value column x[·,·,256+32h+d].
  Everything is stated on the extended reals with the operations of the ideal float instance, in exactly the order
  both programs apply them, so no algebraic law (and no finiteness) is needed to meet either side.
-/
import Idealize.ShloMosaic.PureOps.Ideal
import Idealize.ShloMosaic.Lib.ValueIdx

noncomputable section

open scoped BigOperators

namespace Cert.Attn

open Idealize.ShloMosaic Idealize.ShloMosaic.ValueIdx

/-- The maximum of a row of 49 logits as both programs take it: the running maximum from −∞ (the word 0xFF800000)
    over the 49 keys, then once more against −∞. -/
def rowMax (s : Fin 49 → EReal) : EReal :=
  max (Ideal.ofBits .f32 0xFF800000#32) ((Finset.univ : Finset (Fin 49)).fold max (Ideal.ofBits .f32 0xFF800000#32) s)

/-- The exponential of a logit less the row's maximum. -/
def expShift (s : Fin 49 → EReal) (k : Fin 49) : EReal := Ideal.exp (s k - rowMax s)

/-- The softmax weight of key `k` in the row of logits `s`. -/
def weight (s : Fin 49 → EReal) (k : Fin 49) : EReal := Ideal.div (expShift s k) (∑ k' : Fin 49, expShift s k')

/-- One output entry: the row's weights dotted with a column of values. -/
def attend (s v : Fin 49 → EReal) : EReal := ∑ k : Fin 49, weight s k * v k

/-- Column of head `h`'s query coordinate `d`. -/
def colQ (h : Fin 4) (d : Fin 32) : Fin 384 := ⟨32 * h.val + d.val, by omega⟩
/-- Column of head `h`'s key coordinate `d`. -/
def colK (h : Fin 4) (d : Fin 32) : Fin 384 := ⟨128 + 32 * h.val + d.val, by omega⟩
/-- Column of head `h`'s value coordinate `d`. -/
def colV (h : Fin 4) (d : Fin 32) : Fin 384 := ⟨256 + 32 * h.val + d.val, by omega⟩

/-- The position of window `b` inside its image. -/
def pos (b : Fin 4096) : Fin 64 := ⟨b.val % 64, Nat.mod_lt _ (by decide)⟩

/-- The logit of query token `q` against key token `k` in window `b`, head `h`. -/
def logit (x : (⟨3, ![4096, 49, 384]⟩ : Shape).Idx → EReal) (mk : (⟨3, ![4, 49, 49]⟩ : Shape).Idx → EReal)
    (rt : (⟨3, ![64, 49, 49]⟩ : Shape).Idx → EReal) (b : Fin 4096) (h : Fin 4) (q k : Fin 49) : EReal :=
  ((∑ d : Fin 32, (x (ix3 b q (colQ h d)) * Ideal.ofBits .f32 0x3E3504F3#32) * x (ix3 b k (colK h d)))
      + mk (ix3 h q k)) + rt (ix3 (pos b) q k)

/-- The attention output of window `b`, head `h`, token `q`, coordinate `d`. -/
def out (x : (⟨3, ![4096, 49, 384]⟩ : Shape).Idx → EReal) (mk : (⟨3, ![4, 49, 49]⟩ : Shape).Idx → EReal)
    (rt : (⟨3, ![64, 49, 49]⟩ : Shape).Idx → EReal) (b : Fin 4096) (h : Fin 4) (q : Fin 49) (d : Fin 32) : EReal :=
  attend (fun k => logit x mk rt b h q k) (fun k => x (ix3 b k (colV h d)))

/-- Head of an output column: `c / 32`. -/
def headOf (c : Fin 128) : Fin 4 := ⟨c.val / 32, by omega⟩
/-- Coordinate inside the head of an output column: `c mod 32`. -/
def coordOf (c : Fin 128) : Fin 32 := ⟨c.val % 32, Nat.mod_lt _ (by decide)⟩

/-- THE RESULT ARRAY [4096, 49, 128]: the four heads' outputs side by side, head `h` in columns 32h..32h+31. -/
def result (x : (⟨3, ![4096, 49, 384]⟩ : Shape).Idx → EReal) (mk : (⟨3, ![4, 49, 49]⟩ : Shape).Idx → EReal)
    (rt : (⟨3, ![64, 49, 49]⟩ : Shape).Idx → EReal) : (⟨3, ![4096, 49, 128]⟩ : Shape).Idx → EReal :=
  fun i => out x mk rt (i 0) (headOf (i 2)) (i 1) (coordOf (i 2))

theorem result_apply (x : (⟨3, ![4096, 49, 384]⟩ : Shape).Idx → EReal) (mk : (⟨3, ![4, 49, 49]⟩ : Shape).Idx → EReal)
    (rt : (⟨3, ![64, 49, 49]⟩ : Shape).Idx → EReal) (b : Fin 4096) (q : Fin 49) (c : Fin 128) :
    result x mk rt (ix3 b q c) = out x mk rt b (headOf c) q (coordOf c) := rfl

end Cert.Attn

end
-- ==== Proof.Layout.lean ====
/-
  The layout and reduction operations of one attention head, each read at an index given by its coordinates.
  Blocks here are [64, 49, ·]: 64 windows of 49 tokens. A slice of 32 columns starting at column `o` reads the array
  `o` columns further on; a [1, 49, 49] bias cast to [49, 49] and back and broadcast over the 64 windows reads the
  bias at window 0; a [64, 49] vector of row statistics cast to a [64, 49, 1] column and broadcast along the keys
  reads the statistic of its row; the two reductions over the key axis are the fold of `max` and the sum over the
  49 keys of the row.
-/
import Idealize.ShloMosaic.Lib.Pipeline.Value
import Idealize.ShloMosaic.Lib.ValueIdx
import Idealize.ShloMosaic.PureOps.Ideal.Laws

noncomputable section

open scoped BigOperators

namespace Cert.Attn.Layout

open Idealize.ShloMosaic Idealize.ShloMosaic.ValueIdx

variable {α : Type}

/-- A slice of `w` columns starting at column `o` of an [a, b, c] array, at (n, q, d), is the array at (n, q, o + d). -/
theorem slice_cols {a b c w : Nat} (o : Nat) (x : (⟨3, ![a, b, c]⟩ : Shape).Idx → α)
    (h : (⟨3, ![a, b, c]⟩ : Shape).Slices ![0, 0, o] ⟨3, ![a, b, w]⟩) (n : Fin a) (q : Fin b) (d : Fin w)
    (hc : o + d.val < c) :
    extractStridedSlice ⟨3, ![a, b, w]⟩ ![0, 0, o] x h (ix3 n q d) = x (ix3 n q ⟨o + d.val, hc⟩) :=
  extractStridedSlice_apply ![0, 0, o] x h (ix3 n q d) (ix3 n q ⟨o + d.val, hc⟩) (fun ax => match ax with
    | ⟨0, _⟩ => by show n.val = 0 + n.val; omega
    | ⟨1, _⟩ => by show q.val = 0 + q.val; omega
    | ⟨2, _⟩ => rfl)

/-- A [1, 49, 49] bias, cast to [49, 49] and back and broadcast over `nW` windows, at (n, q, k) is the bias at (0, q, k). -/
theorem bias_bcast {nW : Nat} (mk : (⟨3, ![1, 49, 49]⟩ : Shape).Idx → α)
    (h1 : (⟨3, ![1, 49, 49]⟩ : Shape).ShapeCasts ⟨2, ![49, 49]⟩) (h2 : (⟨2, ![49, 49]⟩ : Shape).ShapeCasts ⟨3, ![1, 49, 49]⟩)
    (hb : (⟨3, ![1, 49, 49]⟩ : Shape).Broadcasts ⟨3, ![nW, 49, 49]⟩) (n : Fin nW) (q k : Fin 49) :
    broadcastTo ⟨3, ![nW, 49, 49]⟩ (shapeCast ⟨3, ![1, 49, 49]⟩ (shapeCast ⟨2, ![49, 49]⟩ mk h1) h2) hb (ix3 n q k)
      = mk (ix3 0 q k) := by
  rw [shapeCast_shapeCast]
  exact broadcastTo_apply mk hb (ix3 n q k) (ix3 0 q k) (fun ax => match ax with
    | ⟨0, _⟩ => rfl
    | ⟨1, _⟩ => rfl
    | ⟨2, _⟩ => rfl)

/-- A [64, 49] vector cast to a [64, 49, 1] column and broadcast along the 49 keys, at (n, q, k), is the vector at (n, q). -/
theorem col_bcast (v : (⟨2, ![64, 49]⟩ : Shape).Idx → α)
    (hc : (⟨2, ![64, 49]⟩ : Shape).ShapeCasts ⟨3, ![64, 49, 1]⟩)
    (hb : (⟨3, ![64, 49, 1]⟩ : Shape).Broadcasts ⟨3, ![64, 49, 49]⟩) (n : Fin 64) (q k : Fin 49) :
    broadcastTo ⟨3, ![64, 49, 49]⟩ (shapeCast ⟨3, ![64, 49, 1]⟩ v hc) hb (ix3 n q k) = v (ix2 n q) := by
  refine (broadcastTo_apply _ hb (ix3 n q k) (ix3 n q (0 : Fin 1)) (fun ax => match ax with
    | ⟨0, _⟩ => rfl
    | ⟨1, _⟩ => rfl
    | ⟨2, _⟩ => rfl)).trans ?_
  exact shapeCast_apply v hc (ix3 n q (0 : Fin 1)) (ix2 n q) (by
    rw [Shape.rowMajor_val_two, Shape.rowMajor_val_three]
    show n.val * 49 + q.val = (n.val * 49 + q.val) * 1 + 0
    omega)

/-- The reduced index (n, q) with key `k` put back on the last axis is (n, q, k). -/
theorem lift_keys (h : (⟨3, ![64, 49, 49]⟩ : Shape).Reduces [2] ⟨2, ![64, 49]⟩) (n : Fin 64) (q : Fin 49)
    (k : Fin ((⟨3, ![64, 49, 49]⟩ : Shape).size 2)) : h.lift (ix2 n q) k = ix3 n q (⟨k.val, k.isLt⟩ : Fin 49) := by
  funext c; apply Fin.ext
  fin_cases c <;> rfl

/-- The row maximum: a max-reduction over the keys from the −∞ word, at (n, q), is the fold of `max` from that word's value
    over the row's 49 entries. -/
theorem rowmax_apply (v : FVec Ideal ⟨3, ![64, 49, 49]⟩ .f32)
    (h : (⟨3, ![64, 49, 49]⟩ : Shape).Reduces [2] ⟨2, ![64, 49]⟩) (hφ : FKind.Formats .f32)
    (hacc : (0xFF800000#32 : BitVec 32) = 0xFF800000#32) (n : Fin 64) (q : Fin 49) :
    multiReduction .maximumf [2] ⟨2, ![64, 49]⟩ v 0xFF800000#32 h hφ hacc (ix2 n q)
      = (Finset.univ : Finset (Fin 49)).fold max (Ideal.ofBits .f32 0xFF800000#32) (fun k => v (ix3 n q k)) := by
  refine (Ideal.multiReduction_maximumf_single v 0xFF800000#32 h hφ hacc (ix2 n q)).trans ?_
  have hf : (v ∘ h.lift (ix2 n q)) = fun k : Fin 49 => v (ix3 n q k) := funext fun k => congrArg v (lift_keys h n q k)
  exact congrArg (fun f => Finset.fold max (Ideal.ofBits .f32 0xFF800000#32) f (Finset.univ : Finset (Fin 49))) hf

/-- The row sum: an add-reduction over the keys from the zero word, at (n, q), is the sum of the row's 49 entries. -/
theorem rowsum_apply (v : FVec Ideal ⟨3, ![64, 49, 49]⟩ .f32)
    (h : (⟨3, ![64, 49, 49]⟩ : Shape).Reduces [2] ⟨2, ![64, 49]⟩) (hφ : FKind.Formats .f32)
    (hacc : (0x00000000#32 : BitVec 32) = 0x00000000#32) (n : Fin 64) (q : Fin 49) :
    multiReduction .add [2] ⟨2, ![64, 49]⟩ v 0x00000000#32 h hφ hacc (ix2 n q) = ∑ k : Fin 49, v (ix3 n q k) := by
  refine (Ideal.multiReduction_add_single v 0x00000000#32 h hφ hacc (ix2 n q)).trans ?_
  exact Finset.sum_congr rfl fun k _ => congrArg v (lift_keys h n q k)

end Cert.Attn.Layout

end
-- ==== Proof.Products.lean ====
/-
  The two batched matrix products of one attention head, each read at an index as a plain sum.
  Logits: for window n, query token q and key token k, the product of the [64, 49, 32] query and key blocks contracts
  the 32 head coordinates: Σ_d A(n, q, d) · B(n, k, d). Outputs: the product of the [64, 49, 49] weights with the
  [64, 49, 32] value block contracts the 49 keys: Σ_k P(n, q, k) · V(n, k, d). Both accumulate into the zero block, so
  at the ideal instance nothing but the sum is left.
-/
import proofs.«179546_j43662637531519_1_alg».proof.Proof.Gen.KernelIdeal
import Idealize.ShloMosaic.Lib.ValueIdx
import Idealize.ShloMosaic.PureOps.Ideal.Laws

noncomputable section

open scoped BigOperators

namespace Cert.KernelIdeal.Head

open Cert.KernelIdeal Idealize.ShloMosaic Idealize.ShloMosaic.ValueIdx

open Facts₀ Facts

/-! ## The operand indices of the logits' product, axis by axis -/

theorem qk_lhs_0 (i : S64x49x49.Idx) (c : dot_S64x49x32_S64x49x32_S64x49x49_2_2_1_1_0_0.contr.Idx) :
    (dot_S64x49x32_S64x49x32_S64x49x49_2_2_1_1_0_0.lhsIdx i c 0).val = (i 0).val := by
  unfold DotDims.lhsIdx
  rw [dif_pos (show (0 : Fin S64x49x32.rank) ∈ dot_S64x49x32_S64x49x32_S64x49x49_2_2_1_1_0_0.lhsBatch by decide)]
  rfl
theorem qk_lhs_1 (i : S64x49x49.Idx) (c : dot_S64x49x32_S64x49x32_S64x49x49_2_2_1_1_0_0.contr.Idx) :
    (dot_S64x49x32_S64x49x32_S64x49x49_2_2_1_1_0_0.lhsIdx i c 1).val = (i 1).val := by
  unfold DotDims.lhsIdx
  rw [dif_neg (show ¬(1 : Fin S64x49x32.rank) ∈ dot_S64x49x32_S64x49x32_S64x49x49_2_2_1_1_0_0.lhsBatch by decide), dif_pos (show (1 : Fin S64x49x32.rank) ∈ dot_S64x49x32_S64x49x32_S64x49x49_2_2_1_1_0_0.lhsNonContracting by decide)]
  rfl
theorem qk_lhs_2 (i : S64x49x49.Idx) (c : dot_S64x49x32_S64x49x32_S64x49x49_2_2_1_1_0_0.contr.Idx) :
    (dot_S64x49x32_S64x49x32_S64x49x49_2_2_1_1_0_0.lhsIdx i c 2).val = (c ⟨0, by decide⟩).val :=
  dot_S64x49x32_S64x49x32_S64x49x49_2_2_1_1_0_0.lhsIdx_val_of_single rfl i c

theorem qk_rhs_0 (i : S64x49x49.Idx) (c : dot_S64x49x32_S64x49x32_S64x49x49_2_2_1_1_0_0.contr.Idx) :
    (dot_S64x49x32_S64x49x32_S64x49x49_2_2_1_1_0_0.rhsIdx i c 0).val = (i 0).val := by
  unfold DotDims.rhsIdx
  rw [dif_pos (show (0 : Fin S64x49x32.rank) ∈ dot_S64x49x32_S64x49x32_S64x49x49_2_2_1_1_0_0.rhsBatch by decide)]
  rfl
theorem qk_rhs_1 (i : S64x49x49.Idx) (c : dot_S64x49x32_S64x49x32_S64x49x49_2_2_1_1_0_0.contr.Idx) :
    (dot_S64x49x32_S64x49x32_S64x49x49_2_2_1_1_0_0.rhsIdx i c 1).val = (i 2).val := by
  unfold DotDims.rhsIdx
  rw [dif_neg (show ¬(1 : Fin S64x49x32.rank) ∈ dot_S64x49x32_S64x49x32_S64x49x49_2_2_1_1_0_0.rhsBatch by decide), dif_pos (show (1 : Fin S64x49x32.rank) ∈ dot_S64x49x32_S64x49x32_S64x49x49_2_2_1_1_0_0.rhsNonContracting by decide)]
  rfl
theorem qk_rhs_2 (i : S64x49x49.Idx) (c : dot_S64x49x32_S64x49x32_S64x49x49_2_2_1_1_0_0.contr.Idx) :
    (dot_S64x49x32_S64x49x32_S64x49x49_2_2_1_1_0_0.rhsIdx i c 2).val = (c ⟨0, by decide⟩).val :=
  dot_S64x49x32_S64x49x32_S64x49x49_2_2_1_1_0_0.rhsIdx_val_of_single rfl i c

/-- The logits' product at (n, q, k): the sum over the 32 head coordinates of query (n, q, ·) times key (n, k, ·). -/
theorem qk_apply (A B : FVec Ideal S64x49x32 .bf16) (n : Fin 64) (q k : Fin 49) :
    matmul (F := Ideal) dot_S64x49x32_S64x49x32_S64x49x49_2_2_1_1_0_0 none A B (constant S64x49x49 .f32 0x00000000#32) (ix3 n q k)
      = ∑ d : Fin 32, A (ix3 n q d) * B (ix3 n k d) := by
  simp only [matmul]
  rw [Ideal.matmul_constant_zero_apply, ← Equiv.sum_comp (contrEquiv1 dot_S64x49x32_S64x49x32_S64x49x49_2_2_1_1_0_0 32 rfl rfl).symm]
  refine Finset.sum_congr rfl fun d _ => ?_
  have hd := contrEquiv1_symm_val dot_S64x49x32_S64x49x32_S64x49x49_2_2_1_1_0_0 32 rfl rfl d
  have el : dot_S64x49x32_S64x49x32_S64x49x49_2_2_1_1_0_0.lhsIdx (ix3 n q k) ((contrEquiv1 dot_S64x49x32_S64x49x32_S64x49x49_2_2_1_1_0_0 32 rfl rfl).symm d) = ix3 n q d := funext fun a => Fin.ext (by
    match a with
    | ⟨0, _⟩ => exact qk_lhs_0 _ _
    | ⟨1, _⟩ => exact qk_lhs_1 _ _
    | ⟨2, _⟩ => exact (qk_lhs_2 _ _).trans hd)
  have er : dot_S64x49x32_S64x49x32_S64x49x49_2_2_1_1_0_0.rhsIdx (ix3 n q k) ((contrEquiv1 dot_S64x49x32_S64x49x32_S64x49x49_2_2_1_1_0_0 32 rfl rfl).symm d) = ix3 n k d := funext fun a => Fin.ext (by
    match a with
    | ⟨0, _⟩ => exact qk_rhs_0 _ _
    | ⟨1, _⟩ => exact qk_rhs_1 _ _
    | ⟨2, _⟩ => exact (qk_rhs_2 _ _).trans hd)
  rw [el, er]

/-! ## The operand indices of the outputs' product, axis by axis -/

theorem pv_lhs_0 (i : S64x49x32.Idx) (c : dot_S64x49x49_S64x49x32_S64x49x32_2_1_1_2_0_0.contr.Idx) :
    (dot_S64x49x49_S64x49x32_S64x49x32_2_1_1_2_0_0.lhsIdx i c 0).val = (i 0).val := by
  unfold DotDims.lhsIdx
  rw [dif_pos (show (0 : Fin S64x49x49.rank) ∈ dot_S64x49x49_S64x49x32_S64x49x32_2_1_1_2_0_0.lhsBatch by decide)]
  rfl
theorem pv_lhs_1 (i : S64x49x32.Idx) (c : dot_S64x49x49_S64x49x32_S64x49x32_2_1_1_2_0_0.contr.Idx) :
    (dot_S64x49x49_S64x49x32_S64x49x32_2_1_1_2_0_0.lhsIdx i c 1).val = (i 1).val := by
  unfold DotDims.lhsIdx
  rw [dif_neg (show ¬(1 : Fin S64x49x49.rank) ∈ dot_S64x49x49_S64x49x32_S64x49x32_2_1_1_2_0_0.lhsBatch by decide), dif_pos (show (1 : Fin S64x49x49.rank) ∈ dot_S64x49x49_S64x49x32_S64x49x32_2_1_1_2_0_0.lhsNonContracting by decide)]
  rfl
theorem pv_lhs_2 (i : S64x49x32.Idx) (c : dot_S64x49x49_S64x49x32_S64x49x32_2_1_1_2_0_0.contr.Idx) :
    (dot_S64x49x49_S64x49x32_S64x49x32_2_1_1_2_0_0.lhsIdx i c 2).val = (c ⟨0, by decide⟩).val :=
  dot_S64x49x49_S64x49x32_S64x49x32_2_1_1_2_0_0.lhsIdx_val_of_single rfl i c

theorem pv_rhs_0 (i : S64x49x32.Idx) (c : dot_S64x49x49_S64x49x32_S64x49x32_2_1_1_2_0_0.contr.Idx) :
    (dot_S64x49x49_S64x49x32_S64x49x32_2_1_1_2_0_0.rhsIdx i c 0).val = (i 0).val := by
  unfold DotDims.rhsIdx
  rw [dif_pos (show (0 : Fin S64x49x32.rank) ∈ dot_S64x49x49_S64x49x32_S64x49x32_2_1_1_2_0_0.rhsBatch by decide)]
  rfl
theorem pv_rhs_1 (i : S64x49x32.Idx) (c : dot_S64x49x49_S64x49x32_S64x49x32_2_1_1_2_0_0.contr.Idx) :
    (dot_S64x49x49_S64x49x32_S64x49x32_2_1_1_2_0_0.rhsIdx i c 1).val = (c ⟨0, by decide⟩).val :=
  dot_S64x49x49_S64x49x32_S64x49x32_2_1_1_2_0_0.rhsIdx_val_of_single rfl i c
theorem pv_rhs_2 (i : S64x49x32.Idx) (c : dot_S64x49x49_S64x49x32_S64x49x32_2_1_1_2_0_0.contr.Idx) :
    (dot_S64x49x49_S64x49x32_S64x49x32_2_1_1_2_0_0.rhsIdx i c 2).val = (i 2).val := by
  unfold DotDims.rhsIdx
  rw [dif_neg (show ¬(2 : Fin S64x49x32.rank) ∈ dot_S64x49x49_S64x49x32_S64x49x32_2_1_1_2_0_0.rhsBatch by decide), dif_pos (show (2 : Fin S64x49x32.rank) ∈ dot_S64x49x49_S64x49x32_S64x49x32_2_1_1_2_0_0.rhsNonContracting by decide)]
  rfl

/-- The outputs' product at (n, q, d): the sum over the 49 keys of weight (n, q, ·) times value (n, ·, d). -/
theorem pv_apply (P : FVec Ideal S64x49x49 .bf16) (V : FVec Ideal S64x49x32 .bf16) (n : Fin 64) (q : Fin 49) (d : Fin 32) :
    matmul (F := Ideal) dot_S64x49x49_S64x49x32_S64x49x32_2_1_1_2_0_0 none P V (constant S64x49x32 .f32 0x00000000#32) (ix3 n q d)
      = ∑ k : Fin 49, P (ix3 n q k) * V (ix3 n k d) := by
  simp only [matmul]
  rw [Ideal.matmul_constant_zero_apply, ← Equiv.sum_comp (contrEquiv1 dot_S64x49x49_S64x49x32_S64x49x32_2_1_1_2_0_0 49 rfl rfl).symm]
  refine Finset.sum_congr rfl fun k _ => ?_
  have hk := contrEquiv1_symm_val dot_S64x49x49_S64x49x32_S64x49x32_2_1_1_2_0_0 49 rfl rfl k
  have el : dot_S64x49x49_S64x49x32_S64x49x32_2_1_1_2_0_0.lhsIdx (ix3 n q d) ((contrEquiv1 dot_S64x49x49_S64x49x32_S64x49x32_2_1_1_2_0_0 49 rfl rfl).symm k) = ix3 n q k := funext fun a => Fin.ext (by
    match a with
    | ⟨0, _⟩ => exact pv_lhs_0 _ _
    | ⟨1, _⟩ => exact pv_lhs_1 _ _
    | ⟨2, _⟩ => exact (pv_lhs_2 _ _).trans hk)
  have er : dot_S64x49x49_S64x49x32_S64x49x32_2_1_1_2_0_0.rhsIdx (ix3 n q d) ((contrEquiv1 dot_S64x49x49_S64x49x32_S64x49x32_2_1_1_2_0_0 49 rfl rfl).symm k) = ix3 n k d := funext fun a => Fin.ext (by
    match a with
    | ⟨0, _⟩ => exact pv_rhs_0 _ _
    | ⟨1, _⟩ => exact (pv_rhs_1 _ _).trans hk
    | ⟨2, _⟩ => exact pv_rhs_2 _ _)
  rw [el, er]

end Cert.KernelIdeal.Head

end
-- ==== Proof.Head.lean ====
/-
  One attention head of a block of 64 windows, as the block operations the kernel applies, and what it holds at
  an index. From the scaled query block `v2`, the key block `v3`, the value block `v4` (each [64, 49, 128], the
  head's 32 columns starting at column `o`), the per-window bias `v5` [64, 49, 49] and the head's bias `mk` [1, 49, 49]:
  the logits (n, q, k) ↦ Σ_d v2(n, q, o+d) · v3(n, k, o+d) + mk(0, q, k) + v5(n, q, k); along the keys the row maximum,
  the shifted exponentials, their sum, the weights; and the output (n, q, d) ↦ Σ_k weight(n, q, k) · v4(n, k, o+d).
  Each stage is read at explicit coordinates and lands on the specification's row functions
  (`Cert.Attn.rowMax`, `expShift`, `weight`, `attend`).
-/
import proofs.«179546_j43662637531519_1_alg».proof.Proof.Gen.KernelIdeal
import proofs.«179546_j43662637531519_1_alg».proof.Proof.Spec
import proofs.«179546_j43662637531519_1_alg».proof.Proof.Layout
import proofs.«179546_j43662637531519_1_alg».proof.Proof.Products

noncomputable section

open scoped BigOperators

namespace Cert.KernelIdeal.Head

open Cert.KernelIdeal Idealize.ShloMosaic Idealize.ShloMosaic.TcCoe Idealize.ShloMosaic.ValueIdx Cert.Attn
open Facts₀ Facts

/-! ## The softmax of a block of logits, stage by stage -/

section Softmax
variable (s : FVec Ideal S64x49x49 .f32)

/-- The row maxima [64, 49] of a block of logits. -/
def maxBlock : FVec Ideal S64x49 .f32 :=
  maximumf (broadcast S64x49 (Scalar.ofBits .f32 0xFF800000#32))
    (multiReduction .maximumf [2] S64x49 s 0xFF800000#32 reduces_S64x49x49_S64x49 (.inl rfl) rfl)

theorem maxBlock_apply (n : Fin 64) (q : Fin 49) : maxBlock s (ix2 n q) = rowMax (fun k => s (ix3 n q k)) :=
  congrArg (max (Ideal.ofBits .f32 0xFF800000#32)) (Layout.rowmax_apply s reduces_S64x49x49_S64x49 (.inl rfl) rfl n q)

/-- The exponentials of the logits less their row's maximum. -/
def expBlock : FVec Ideal S64x49x49 .f32 :=
  exp (subf s (broadcastTo S64x49x49 (shapeCast S64x49x1 (maxBlock s) shapeCasts_S64x49_S64x49x1) broadcasts_S64x49x1_S64x49x49))

theorem expBlock_apply (n : Fin 64) (q k : Fin 49) : expBlock s (ix3 n q k) = expShift (fun k' => s (ix3 n q k')) k := by
  unfold expBlock expShift
  show Ideal.exp (s (ix3 n q k) - broadcastTo S64x49x49 (shapeCast S64x49x1 (maxBlock s) shapeCasts_S64x49_S64x49x1) broadcasts_S64x49x1_S64x49x49 (ix3 n q k)) = _
  rw [Layout.col_bcast, maxBlock_apply]

/-- The row sums [64, 49] of the exponentials. -/
def sumBlock : FVec Ideal S64x49 .f32 :=
  multiReduction .add [2] S64x49 (expBlock s) 0x00000000#32 reduces_S64x49x49_S64x49 (.inl rfl) rfl

theorem sumBlock_apply (n : Fin 64) (q : Fin 49) :
    sumBlock s (ix2 n q) = ∑ k : Fin 49, expShift (fun k' => s (ix3 n q k')) k :=
  (Layout.rowsum_apply (expBlock s) reduces_S64x49x49_S64x49 (.inl rfl) rfl n q).trans
    (Finset.sum_congr rfl fun k _ => expBlock_apply s n q k)

/-- The softmax weights of the block. -/
def weightBlock : FVec Ideal S64x49x49 .bf16 :=
  truncf .bf16 (divf (expBlock s) (broadcastTo S64x49x49 (shapeCast S64x49x1 (sumBlock s) shapeCasts_S64x49_S64x49x1) broadcasts_S64x49x1_S64x49x49)) bitsLt_bf16_f32

theorem weightBlock_apply (n : Fin 64) (q k : Fin 49) : weightBlock s (ix3 n q k) = weight (fun k' => s (ix3 n q k')) k := by
  unfold weightBlock weight
  show Ideal.div (expBlock s (ix3 n q k)) (broadcastTo S64x49x49 (shapeCast S64x49x1 (sumBlock s) shapeCasts_S64x49_S64x49x1) broadcasts_S64x49x1_S64x49x49 (ix3 n q k)) = _
  rw [Layout.col_bcast, expBlock_apply, sumBlock_apply]

end Softmax

/-! ## The head -/

section HeadOps
variable (o : Nat) (hs : S64x49x128.Slices ![0, 0, o] S64x49x32)
  (v2 v3 v4 : FVec Ideal S64x49x128 .f32) (v5 : FVec Ideal S64x49x49 .f32) (mk : FVec Ideal S1x49x49 .f32)

/-- The head's block of logits. -/
def logitBlock : FVec Ideal S64x49x49 .f32 :=
  addf (addf
    (matmul dot_S64x49x32_S64x49x32_S64x49x49_2_2_1_1_0_0 none
      (truncf .bf16 (extractStridedSlice S64x49x32 ![0, 0, o] v2 hs) bitsLt_bf16_f32)
      (truncf .bf16 (extractStridedSlice S64x49x32 ![0, 0, o] v3 hs) bitsLt_bf16_f32)
      (constant S64x49x49 .f32 0x00000000#32))
    (broadcastTo S64x49x49 (shapeCast S1x49x49 (shapeCast S49x49 mk shapeCasts_S1x49x49_S49x49) shapeCasts_S49x49_S1x49x49) broadcasts_S1x49x49_S64x49x49))
    v5

theorem logitBlock_apply (ho : o + 32 ≤ 128) (n : Fin 64) (q k : Fin 49) :
    logitBlock o hs v2 v3 v5 mk (ix3 n q k)
      = ((∑ d : Fin 32, v2 (ix3 n q (⟨o + d.val, by have := d.isLt; omega⟩ : Fin 128)) * v3 (ix3 n k (⟨o + d.val, by have := d.isLt; omega⟩ : Fin 128)))
          + mk (ix3 0 q k)) + v5 (ix3 n q k) := by
  unfold logitBlock
  rw [addf_apply, addf_apply, qk_apply, Layout.bias_bcast]
  refine congrArg (· + v5 (ix3 n q k)) (congrArg (· + mk (ix3 0 q k)) (Finset.sum_congr rfl fun d _ => ?_))
  rw [truncf_apply, truncf_apply, Layout.slice_cols o v2 hs n q d (by have := d.isLt; omega),
    Layout.slice_cols o v3 hs n k d (by have := d.isLt; omega)]

/-- The head's block of outputs [64, 49, 32]. -/
def headBlock : FVec Ideal S64x49x32 .f32 :=
  matmul dot_S64x49x49_S64x49x32_S64x49x32_2_1_1_2_0_0 none (weightBlock (logitBlock o hs v2 v3 v5 mk))
    (truncf .bf16 (extractStridedSlice S64x49x32 ![0, 0, o] v4 hs) bitsLt_bf16_f32)
    (constant S64x49x32 .f32 0x00000000#32)

theorem headBlock_apply (ho : o + 32 ≤ 128) (n : Fin 64) (q : Fin 49) (d : Fin 32) :
    headBlock o hs v2 v3 v4 v5 mk (ix3 n q d)
      = attend (fun k => ((∑ d' : Fin 32, v2 (ix3 n q (⟨o + d'.val, by have := d'.isLt; omega⟩ : Fin 128)) * v3 (ix3 n k (⟨o + d'.val, by have := d'.isLt; omega⟩ : Fin 128)))
          + mk (ix3 0 q k)) + v5 (ix3 n q k))
        (fun k => v4 (ix3 n k (⟨o + d.val, by have := d.isLt; omega⟩ : Fin 128))) := by
  unfold headBlock attend
  rw [pv_apply]
  refine Finset.sum_congr rfl fun k _ => ?_
  rw [weightBlock_apply, truncf_apply, Layout.slice_cols o v4 hs n k d (by have := d.isLt; omega)]
  refine congrArg (fun f => weight f k * _) (funext fun k' => ?_)
  exact logitBlock_apply o hs v2 v3 v5 mk ho n q k'

end HeadOps

end Cert.KernelIdeal.Head

end
-- ==== Proof.Block.lean ====
/-
  What one grid point's body leaves in its [64, 49, 128] output block, entry by entry.

  The body loads the query, key and value thirds of its [64, 49, 384] input block (columns 0.., 128.., 256..), the
  whole [64, 49, 49] per-window bias, and one [1, 49, 49] slab of the per-head bias for each of the four heads; it
  scales the queries by the logit scale, runs the four heads, and lays their [64, 49, 32] outputs side by side. So
  entry (n, q, 32h + d) of the block is head h's output at (n, q, d): the softmax weights of the row of logits
      k ↦ (Σ_d' (x0[n,q,32h+d'] · c) · x0[n,k,128+32h+d'] + x1[h,q,k]) + x2[n,q,k]
  dotted with the value column k ↦ x0[n,k,256+32h+d], where x0, x1, x2 are the three input blocks.
-/
import proofs.«179546_j43662637531519_1_alg».proof.Proof.Gen.KernelIdeal.Frame
import proofs.«179546_j43662637531519_1_alg».proof.Proof.Head

noncomputable section

open scoped BigOperators

namespace Cert.KernelIdeal.Block

open Cert.KernelIdeal Cert.KernelIdeal.Gen Cert.KernelIdeal.Head Idealize.ShloMosaic Idealize.ShloMosaic.TcCoe
open Idealize.ShloMosaic.ValueIdx Cert.Attn

/-! ## The loads, at an index -/

theorem zero3 : (![0, 0, 0] : Fin 3 → Nat) = fun _ => 0 := funext fun a => by fin_cases a <;> rfl

/-- A load of 128 columns starting at column `o` of the input block, at (n, q, c), is the block at (n, q, o + c). -/
theorem ld_cols (o : Nat) (x : FVec Ideal S64x49x384 .f32)
    (inb : ∀ a, (![0, 0, o] : Fin 3 → Nat) a + S64x49x128.size a ≤ S64x49x384.size a)
    (n : Fin 64) (q : Fin 49) (c : Fin 128) (c' : Fin 384) (hc : c'.val = o + c.val) :
    View.ld (Val := Elt Ideal) (e' := .f32) x (Rect.unit (s := S64x49x384) ![0, 0, o] S64x49x128.size inb) (ix3 n q c) = x (ix3 n q c') :=
  congrArg x (funext fun a => Fin.ext (by
    match a with
    | ⟨0, _⟩ => show 0 + 1 * n.val = n.val; omega
    | ⟨1, _⟩ => show 0 + 1 * q.val = q.val; omega
    | ⟨2, _⟩ => show o + 1 * c.val = c'.val; omega))

/-- A load of slab `r` of the per-head bias, at (0, q, k), is the bias at (r, q, k). -/
theorem ld_slab (r : Nat) (x : FVec Ideal S4x49x49 .f32)
    (inb : ∀ a, (![r, 0, 0] : Fin 3 → Nat) a + S1x49x49.size a ≤ S4x49x49.size a)
    (z : Fin 1) (q k : Fin 49) (h : Fin 4) (hr : h.val = r) :
    View.ld (Val := Elt Ideal) (e' := .f32) x (Rect.unit (s := S4x49x49) ![r, 0, 0] S1x49x49.size inb) (ix3 z q k) = x (ix3 h q k) :=
  congrArg x (funext fun a => Fin.ext (by
    match a with
    | ⟨0, _⟩ => show r + 1 * z.val = h.val; have := z.isLt; omega
    | ⟨1, _⟩ => show 0 + 1 * q.val = q.val; omega
    | ⟨2, _⟩ => show 0 + 1 * k.val = k.val; omega))

/-- The scaled queries at an index: the loaded entry times the logit scale. -/
theorem scaled_apply (v0 : FVec Ideal S64x49x128 .f32) (i : S64x49x128.Idx) :
    k0_pay2 (F := Ideal) v0 i = v0 i * Ideal.ofBits .f32 0x3E3504F3#32 := rfl

/-! ## The body's stored value is the four heads side by side -/

/-- The stored value, as printed, is the concatenation of the four heads' blocks over the scaled queries, the keys,
    the values, the per-window bias and each head's bias slab. -/
theorem stored_eq (v0 v3 v4 : FVec Ideal S64x49x128 .f32) (v5 : FVec Ideal S64x49x49 .f32) (m0 m1 m2 m3 : FVec Ideal S1x49x49 .f32) :
    k0_pay1 (F := Ideal) (k0_pay2 v0) v3 v4 v5 (k0_pay3 v0 v3 v4 v5 m0) (k0_pay7 v5 (k0_pay4 v0) (k0_pay5 v3) (k0_pay6 v4) m1)
        (k0_pay8 v4) (k0_pay9 (k0_pay2 v0) v3 v5 m2) m3
      = concatenate S64x49x128 2
          [⟨S64x49x32, headBlock 0 Facts₀.slices_S64x49x128_o0_0_0_S64x49x32 (k0_pay2 v0) v3 v4 v5 m0⟩,
           ⟨S64x49x32, headBlock 32 Facts₀.slices_S64x49x128_o0_0_32_S64x49x32 (k0_pay2 v0) v3 v4 v5 m1⟩,
           ⟨S64x49x32, headBlock 64 Facts₀.slices_S64x49x128_o0_0_64_S64x49x32 (k0_pay2 v0) v3 v4 v5 m2⟩,
           ⟨S64x49x32, headBlock 96 Facts₀.slices_S64x49x128_o0_0_96_S64x49x32 (k0_pay2 v0) v3 v4 v5 m3⟩]
          Facts₀.concatenates_S64x49x32_S64x49x32_S64x49x32_S64x49x32_S64x49x128_d2 := rfl

/-! ## Four [64, 49, 32] pieces side by side, at an index -/

theorem concat_at_0 (p0 p1 p2 p3 : FVec Ideal S64x49x32 .f32)
    (hcat : Shape.Concatenates [S64x49x32, S64x49x32, S64x49x32, S64x49x32] S64x49x128 2)
    (n : Fin 64) (q : Fin 49) (d : Fin 32) :
    concatenate S64x49x128 2 [⟨S64x49x32, p0⟩, ⟨S64x49x32, p1⟩, ⟨S64x49x32, p2⟩, ⟨S64x49x32, p3⟩] hcat
        (ix3 n q (⟨0 + d.val, by have := d.isLt; omega⟩ : Fin 128)) = p0 (ix3 n q d) :=
  concatenate_apply_piece (t := S64x49x128) (2 : Fin 3) [⟨S64x49x32, p0⟩, ⟨S64x49x32, p1⟩, ⟨S64x49x32, p2⟩, ⟨S64x49x32, p3⟩] hcat
    (ix3 n q (⟨0 + d.val, by have := d.isLt; omega⟩ : Fin 128)) 0 (by simp) S64x49x32 p0 rfl rfl 0 (by rfl)
    (ix3 n q d) (fun b hb => by
      match b with
      | ⟨0, _⟩ => rfl
      | ⟨1, _⟩ => rfl
      | ⟨2, _⟩ => exact absurd rfl hb)
    (by show 0 + d.val = 0 + d.val; rfl)

theorem concat_at_1 (p0 p1 p2 p3 : FVec Ideal S64x49x32 .f32)
    (hcat : Shape.Concatenates [S64x49x32, S64x49x32, S64x49x32, S64x49x32] S64x49x128 2)
    (n : Fin 64) (q : Fin 49) (d : Fin 32) :
    concatenate S64x49x128 2 [⟨S64x49x32, p0⟩, ⟨S64x49x32, p1⟩, ⟨S64x49x32, p2⟩, ⟨S64x49x32, p3⟩] hcat
        (ix3 n q (⟨32 + d.val, by have := d.isLt; omega⟩ : Fin 128)) = p1 (ix3 n q d) :=
  concatenate_apply_piece (t := S64x49x128) (2 : Fin 3) [⟨S64x49x32, p0⟩, ⟨S64x49x32, p1⟩, ⟨S64x49x32, p2⟩, ⟨S64x49x32, p3⟩] hcat
    (ix3 n q (⟨32 + d.val, by have := d.isLt; omega⟩ : Fin 128)) 1 (by simp) S64x49x32 p1 rfl rfl 32 (by rfl)
    (ix3 n q d) (fun b hb => by
      match b with
      | ⟨0, _⟩ => rfl
      | ⟨1, _⟩ => rfl
      | ⟨2, _⟩ => exact absurd rfl hb)
    (by show 32 + d.val = 32 + d.val; rfl)

theorem concat_at_2 (p0 p1 p2 p3 : FVec Ideal S64x49x32 .f32)
    (hcat : Shape.Concatenates [S64x49x32, S64x49x32, S64x49x32, S64x49x32] S64x49x128 2)
    (n : Fin 64) (q : Fin 49) (d : Fin 32) :
    concatenate S64x49x128 2 [⟨S64x49x32, p0⟩, ⟨S64x49x32, p1⟩, ⟨S64x49x32, p2⟩, ⟨S64x49x32, p3⟩] hcat
        (ix3 n q (⟨64 + d.val, by have := d.isLt; omega⟩ : Fin 128)) = p2 (ix3 n q d) :=
  concatenate_apply_piece (t := S64x49x128) (2 : Fin 3) [⟨S64x49x32, p0⟩, ⟨S64x49x32, p1⟩, ⟨S64x49x32, p2⟩, ⟨S64x49x32, p3⟩] hcat
    (ix3 n q (⟨64 + d.val, by have := d.isLt; omega⟩ : Fin 128)) 2 (by simp) S64x49x32 p2 rfl rfl 64 (by rfl)
    (ix3 n q d) (fun b hb => by
      match b with
      | ⟨0, _⟩ => rfl
      | ⟨1, _⟩ => rfl
      | ⟨2, _⟩ => exact absurd rfl hb)
    (by show 64 + d.val = 64 + d.val; rfl)

theorem concat_at_3 (p0 p1 p2 p3 : FVec Ideal S64x49x32 .f32)
    (hcat : Shape.Concatenates [S64x49x32, S64x49x32, S64x49x32, S64x49x32] S64x49x128 2)
    (n : Fin 64) (q : Fin 49) (d : Fin 32) :
    concatenate S64x49x128 2 [⟨S64x49x32, p0⟩, ⟨S64x49x32, p1⟩, ⟨S64x49x32, p2⟩, ⟨S64x49x32, p3⟩] hcat
        (ix3 n q (⟨96 + d.val, by have := d.isLt; omega⟩ : Fin 128)) = p3 (ix3 n q d) :=
  concatenate_apply_piece (t := S64x49x128) (2 : Fin 3) [⟨S64x49x32, p0⟩, ⟨S64x49x32, p1⟩, ⟨S64x49x32, p2⟩, ⟨S64x49x32, p3⟩] hcat
    (ix3 n q (⟨96 + d.val, by have := d.isLt; omega⟩ : Fin 128)) 3 (by simp) S64x49x32 p3 rfl rfl 96 (by rfl)
    (ix3 n q d) (fun b hb => by
      match b with
      | ⟨0, _⟩ => rfl
      | ⟨1, _⟩ => rfl
      | ⟨2, _⟩ => exact absurd rfl hb)
    (by show 96 + d.val = 96 + d.val; rfl)

/-! ## One head over the loaded blocks -/

/-- Head `h` (columns `o = 32 h`, bias slab `r = h`) over the body's loads of the input blocks `x0`, `x1`, `x2`, at (n, q, d). -/
theorem head_of_loads (x0 : FVec Ideal S64x49x384 .f32) (x1 : FVec Ideal S4x49x49 .f32) (x2 : FVec Ideal S64x49x49 .f32)
    (o r : Nat) (h : Fin 4) (eo : o = 32 * h.val) (er : h.val = r)
    (hs : S64x49x128.Slices ![0, 0, o] S64x49x32)
    (inb : ∀ a, (![r, 0, 0] : Fin 3 → Nat) a + S1x49x49.size a ≤ S4x49x49.size a)
    (n : Fin 64) (q : Fin 49) (d : Fin 32) :
    headBlock o hs (k0_pay2 (View.ld (Val := Elt Ideal) (e' := .f32) x0 r0_0)) (View.ld (Val := Elt Ideal) (e' := .f32) x0 r0_1) (View.ld (Val := Elt Ideal) (e' := .f32) x0 r0_2) (View.ld (Val := Elt Ideal) (e' := .f32) x2 r0_3)
        (View.ld (Val := Elt Ideal) (e' := .f32) x1 (Rect.unit (s := S4x49x49) ![r, 0, 0] S1x49x49.size inb)) (ix3 n q d)
      = attend (fun k => ((∑ d' : Fin 32, (x0 (ix3 n q (colQ h d')) * Ideal.ofBits .f32 0x3E3504F3#32) * x0 (ix3 n k (colK h d')))
            + x1 (ix3 h q k)) + x2 (ix3 n q k))
          (fun k => x0 (ix3 n k (colV h d))) := by
  have hh := h.isLt
  refine (headBlock_apply o hs _ _ _ _ _ (by omega) n q d).trans ?_
  refine congrArg₂ attend (funext fun k => ?_) (funext fun k => ?_)
  · refine congrArg₂ (· + ·) (congrArg₂ (· + ·) (Finset.sum_congr rfl fun d' _ => ?_) ?_) ?_
    · have hd' := d'.isLt
      refine congrArg₂ (· * ·) ?_ ?_
      · rw [scaled_apply]
        exact congrArg (· * Ideal.ofBits .f32 0x3E3504F3#32) (ld_cols 0 x0 _ n q _ (colQ h d') (by show 32 * h.val + d'.val = 0 + (o + d'.val); omega))
      · exact ld_cols 128 x0 _ n k _ (colK h d') (by show 128 + 32 * h.val + d'.val = 128 + (o + d'.val); omega)
    · exact ld_slab r x1 inb 0 q k h er
    · exact congrFun (View.ld_unit_zero (Val := Elt Ideal) (S := S64x49x49) (e := .f32) zero3 Facts₀.inb_S64x49x49_S64x49x49_0_0_0 x2) (ix3 n q k)
  · have hd := d.isLt
    exact ld_cols 256 x0 _ n k _ (colV h d) (by show 256 + 32 * h.val + d.val = 256 + (o + d.val); omega)

/-! ## The output block, entry by entry -/

/-- Entry (n, q, 32 h + d) of what the body leaves in the output block, from the three input blocks. -/
theorem out_apply (x0 : FVec Ideal S64x49x384 .f32) (x1 : FVec Ideal S4x49x49 .f32) (x2 : FVec Ideal S64x49x49 .f32)
    (n : Fin 64) (q : Fin 49) (h : Fin 4) (d : Fin 32) :
    out0_3 (F := Ideal) x0 x1 x2 (ix3 n q (⟨32 * h.val + d.val, by have := h.isLt; have := d.isLt; omega⟩ : Fin 128))
      = attend (fun k => ((∑ d' : Fin 32, (x0 (ix3 n q (colQ h d')) * Ideal.ofBits .f32 0x3E3504F3#32) * x0 (ix3 n k (colK h d')))
            + x1 (ix3 h q k)) + x2 (ix3 n q k))
          (fun k => x0 (ix3 n k (colV h d))) := by
  unfold out0_3
  rw [View.canon_unit_zero zero3, stored_eq]
  match h with
  | ⟨0, _⟩ => exact (concat_at_0 _ _ _ _ _ n q d).trans (head_of_loads x0 x1 x2 0 0 ⟨0, by decide⟩ rfl rfl _ _ n q d)
  | ⟨1, _⟩ => exact (concat_at_1 _ _ _ _ _ n q d).trans (head_of_loads x0 x1 x2 32 1 ⟨1, by decide⟩ rfl rfl _ _ n q d)
  | ⟨2, _⟩ => exact (concat_at_2 _ _ _ _ _ n q d).trans (head_of_loads x0 x1 x2 64 2 ⟨2, by decide⟩ rfl rfl _ _ n q d)
  | ⟨3, _⟩ => exact (concat_at_3 _ _ _ _ _ n q d).trans (head_of_loads x0 x1 x2 96 3 ⟨3, by decide⟩ rfl rfl _ _ n q d)

end Cert.KernelIdeal.Block

end
-- ==== Proof.Whole.lean ====
/-
  From the blocks to the whole result array. Grid point `t` (of 64) handles windows 64 t .. 64 t + 63: its input
  block of the packed array is rows 64 t + n, the two bias arrays are staged whole, and it writes back rows
  64 t + n of the result. Entry (n, q, c) of the block it writes is the specification's result at (64 t + n, q, c)
  — window 64 t + n sits at position n of its image —, the 64 blocks tile the 4096 windows, and so after the run
  the result array IS the specification's function of the three argument arrays.
-/
import proofs.«179546_j43662637531519_1_alg».proof.Proof.Gen.KernelIdeal.Value
import proofs.«179546_j43662637531519_1_alg».proof.Proof.Block

noncomputable section

open scoped BigOperators

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Attn
open Idealize.ShloMosaic.Pipeline (Dat)

/-! ## One block against the arrays, over plain variables -/

/-- The head and the coordinate of column 32 h + d. -/
theorem headOf_mk (h : Fin 4) (d : Fin 32) (hc : 32 * h.val + d.val < 128) : headOf ⟨32 * h.val + d.val, hc⟩ = h :=
  Fin.ext (by show (32 * h.val + d.val) / 32 = h.val; have := d.isLt; omega)
theorem coordOf_mk (h : Fin 4) (d : Fin 32) (hc : 32 * h.val + d.val < 128) : coordOf ⟨32 * h.val + d.val, hc⟩ = d :=
  Fin.ext (by show (32 * h.val + d.val) % 32 = d.val; have := d.isLt; omega)

/-- If `x0` is rows 64 T + · of the packed array `X0` and `x1`, `x2` are the bias arrays whole, then what the body
    leaves in its block, at (n, q, c), is the specification's result at (64 T + n, q, c). -/
theorem block_is_result (X0 : FVec Ideal S4096x49x384 .f32) (X1 : FVec Ideal S4x49x49 .f32) (X2 : FVec Ideal S64x49x49 .f32)
    (x0 : FVec Ideal S64x49x384 .f32) (x1 : FVec Ideal S4x49x49 .f32) (x2 : FVec Ideal S64x49x49 .f32) (T : Nat)
    (h0 : ∀ (n : Fin 64) (q : Fin 49) (c : Fin 384) (b : Fin 4096), b.val = 64 * T + n.val → x0 (ix3 n q c) = X0 (ix3 b q c))
    (h1 : x1 = X1) (h2 : x2 = X2) (n : Fin 64) (q : Fin 49) (cc : Fin 128) (b : Fin 4096) (hb : b.val = 64 * T + n.val) :
    out0_3 (F := Ideal) x0 x1 x2 (ix3 n q cc) = result X0 X1 X2 (ix3 b q cc) := by
  subst h1 h2
  have hcc : cc = ⟨32 * (headOf cc).val + (coordOf cc).val, by have := cc.isLt; show 32 * (cc.val / 32) + cc.val % 32 < 128; omega⟩ :=
    Fin.ext (by show cc.val = 32 * (cc.val / 32) + cc.val % 32; omega)
  rw [result_apply]
  refine (congrArg (fun z => out0_3 (F := Ideal) x0 x1 x2 (ix3 n q z)) hcc).trans ?_
  refine (out_apply x0 x1 x2 n q (headOf cc) (coordOf cc)).trans ?_
  unfold out
  refine congrArg₂ attend (funext fun k => ?_) (funext fun k => ?_)
  · unfold logit
    refine congrArg₂ (· + ·) (congrArg₂ (· + ·) (Finset.sum_congr rfl fun d' _ => ?_) rfl) ?_
    · rw [h0 n q _ b hb, h0 n k _ b hb]
    · exact congrArg (fun z => x2 (ix3 z q k)) (Fin.ext (by show n.val = b.val % 64; have := n.isLt; omega))
  · exact h0 n k _ b hb

/-! ## The index maps over the grid -/

/-- The printed index maps, decided over the 64 grid points: the packed array's and the result's windows are at
    block t along the windows' axis, the bias arrays' at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

variable (m : (ℓ : Loc nD τ sig) → Buf (Elt Ideal) ℓ) (ρ : Dev nD → PrngReg)

/-- The packed array's block at point t is its rows 64 t + ·. -/
theorem iblk0_apply (c : Dev nD) (t : Fin cfg0.N) (n : Fin 64) (q : Fin 49) (cc : Fin 384) (b : Fin 4096)
    (hb : b.val = 64 * t.val + n.val) : iblk m c 0 t (ix3 n q cc) = V m c main_arg0 (ix3 b q cc) := by
  obtain ⟨e0, e1, e2, -⟩ := idx_facts t
  show V m c main_arg0 (((cfg0.win 0).blk t).view.emb (ix3 n q cc)) = V m c main_arg0 (ix3 b q cc)
  refine congrArg (V m c main_arg0) (funext fun a => Fin.ext ?_)
  match a with
  | ⟨0, _⟩ => show win0_0.index t (0 : Fin 3) * 64 + 1 * n.val = b.val; omega
  | ⟨1, _⟩ => show win0_0.index t (1 : Fin 3) * 49 + 1 * q.val = q.val; omega
  | ⟨2, _⟩ => show win0_0.index t (2 : Fin 3) * 384 + 1 * cc.val = cc.val; omega

/-- The per-head bias is staged whole at every point. -/
theorem iblk1_eq (c : Dev nD) (t : Fin cfg0.N) : iblk m c 1 t = V m c main_arg1 := by
  obtain ⟨-, -, -, e0, e1, e2, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 3) * 4 + 1 * (j 0).val = (j 0).val; omega
  | ⟨1, _⟩ => show win0_1.index t (1 : Fin 3) * 49 + 1 * (j 1).val = (j 1).val; omega
  | ⟨2, _⟩ => show win0_1.index t (2 : Fin 3) * 49 + 1 * (j 2).val = (j 2).val; omega

/-- The per-window bias is staged whole at every point. -/
theorem iblk2_eq (c : Dev nD) (t : Fin cfg0.N) : iblk m c 2 t = V m c main_arg2 := by
  obtain ⟨-, -, -, -, -, -, e0, e1, e2, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 3) * 64 + 1 * (j 0).val = (j 0).val; omega
  | ⟨1, _⟩ => show win0_2.index t (1 : Fin 3) * 49 + 1 * (j 1).val = (j 1).val; omega
  | ⟨2, _⟩ => show win0_2.index t (2 : Fin 3) * 49 + 1 * (j 2).val = (j 2).val; omega

/-! ## What each point writes back, the cover, the array -/

/-- WHAT POINT `t` WRITES BACK is block `t` of the specification's result of the argument arrays. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Cert.KernelIdeal.Value.flushed3]
  obtain ⟨-, -, -, -, -, -, -, -, -, e0, e1, e2⟩ := idx_facts t
  funext y
  show out0_3 (F := Ideal) (iblk m c 0 t) (iblk m c 1 t) (iblk m c 2 t) y
    = result (V m c main_arg0) (V m c main_arg1) (V m c main_arg2) (((cfg0.win 3).blk t).view.emb y)
  have hy0 : (y 0).val < 64 := (y 0).isLt
  have hy1 : (y 1).val < 49 := (y 1).isLt
  have hy2 : (y 2).val < 128 := (y 2).isLt
  have ht : t.val < 64 := t.isLt
  have hy : y = ix3 (⟨(y 0).val, hy0⟩ : Fin 64) (⟨(y 1).val, hy1⟩ : Fin 49) (⟨(y 2).val, hy2⟩ : Fin 128) := by
    funext a; apply Fin.ext
    match a with
    | ⟨0, _⟩ => rfl
    | ⟨1, _⟩ => rfl
    | ⟨2, _⟩ => rfl
  have he : ((cfg0.win 3).blk t).view.emb y
      = ix3 (⟨64 * t.val + (y 0).val, by omega⟩ : Fin 4096) (⟨(y 1).val, hy1⟩ : Fin 49) (⟨(y 2).val, hy2⟩ : Fin 128) := by
    funext a; apply Fin.ext
    match a with
    | ⟨0, _⟩ => show win0_3.index t (0 : Fin 3) * 64 + 1 * (y 0).val = 64 * t.val + (y 0).val; omega
    | ⟨1, _⟩ => show win0_3.index t (1 : Fin 3) * 49 + 1 * (y 1).val = (y 1).val; omega
    | ⟨2, _⟩ => show win0_3.index t (2 : Fin 3) * 128 + 1 * (y 2).val = (y 2).val; omega
  rw [he]
  refine (congrArg (out0_3 (F := Ideal) (iblk m c 0 t) (iblk m c 1 t) (iblk m c 2 t)) hy).trans ?_
  exact block_is_result (V m c main_arg0) (V m c main_arg1) (V m c main_arg2) (iblk m c 0 t) (iblk m c 1 t) (iblk m c 2 t) t.val
    (fun n q cc b hb => iblk0_apply m c t n q cc b hb) (iblk1_eq m c t) (iblk2_eq m c t) _ _ _ _ rfl

/-- An index of the result array is in point `t`'s block iff each coordinate is in the block's range on its axis. -/
theorem mem_blk (t : Fin cfg0.N) (i : S4096x49x128.Idx) :
    i ∈ ((cfg0.win 3).blk t).view.set ↔ ∀ a : Fin 3, win0_3.index t a * S64x49x128.size a ≤ (i a).val ∧ (i a).val < win0_3.index t a * S64x49x128.size a + S64x49x128.size a := by
  show i ∈ ((View.whole main_v0).slice (win0_3.rect t)).set ↔ _
  rw [View.set_slice_whole, Rect.mem_set_unit]
  exact Iff.rfl

/-- Every index of the result array is in the block of the point that handles its window. -/
theorem cover (i : S4096x49x128.Idx) :
    ∃ t : Fin cfg0.N, (cfg0.win 3).flush t = true ∧ i ∈ ((cfg0.win 3).blk t).view.set := by
  have hi0 : (i 0).val < 4096 := (i 0).isLt
  have hi1 : (i 1).val < 49 := (i 1).isLt
  have hi2 : (i 2).val < 128 := (i 2).isLt
  refine ⟨⟨(i 0).val / 64, by show (i 0).val / 64 < 64; omega⟩, flush0_3 _, ?_⟩
  obtain ⟨-, -, -, -, -, -, -, -, -, e0, e1, e2⟩ := idx_facts ⟨(i 0).val / 64, by show (i 0).val / 64 < 64; omega⟩
  rw [mem_blk]
  intro a
  match a with
  | ⟨0, _⟩ => show win0_3.index _ (0 : Fin 3) * 64 ≤ (i 0).val ∧ (i 0).val < win0_3.index _ (0 : Fin 3) * 64 + 64; rw [e0]; show (i 0).val / 64 * 64 ≤ (i 0).val ∧ (i 0).val < (i 0).val / 64 * 64 + 64; omega
  | ⟨1, _⟩ => show win0_3.index _ (1 : Fin 3) * 49 ≤ (i 1).val ∧ (i 1).val < win0_3.index _ (1 : Fin 3) * 49 + 49; rw [e1]; omega
  | ⟨2, _⟩ => show win0_3.index _ (2 : Fin 3) * 128 ≤ (i 2).val ∧ (i 2).val < win0_3.index _ (2 : Fin 3) * 128 + 128; rw [e2]; omega

/-- THE RESULT ARRAY after the run is the specification's result of the argument arrays as launched. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 (result (V m c main_arg0) (V m c main_arg1) (V m c main_arg2))
    (fun t _ => flushed_eq m c t) cover

/-- The kernel's run: it terminates with the result array at the specification's result and the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefValue.lean ====
/-
  The reference program's result array, read entry by entry, IS the windowed attention of the specification.

  Each stage of the reference program is read at explicit coordinates: the three slabs of the packed array (queries,
  keys, values) are columns of the argument, the first contraction plus the two biases is the logit, the running maximum
  from −∞ then once more against −∞ is the row maximum, exponential / sum / quotient are the softmax weights, and the
  second contraction followed by the transposition and the merge of the head axis into the columns is the result.
-/
import proofs.«179546_j43662637531519_1_alg».proof.Proof.Gen.ReferenceIdeal.Read
import proofs.«179546_j43662637531519_1_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The three slabs of the packed array -/

/-- Splitting off a leading axis of extent one: entry (b, h, q, d) of the rank-4 array is entry (0, b, h, q, d). -/
theorem unit_axis_at (b : Fin 4096) (h : Fin 4) (q : Fin 49) (d : Fin 32) :
    idx_main_v3 (ix4 b h q d) = ix5 (0 : Fin 1) b h q d := by
  funext a; apply Fin.ext
  have hb := b.isLt; have hh := h.isLt; have hq := q.isLt; have hd := d.isLt
  match a with
  | ⟨0, _⟩ => rfl
  | ⟨1, _⟩ => show (((b.val * 4 + h.val) * 49 + q.val) * 32 + d.val) / 6272 % 4096 = b.val; omega
  | ⟨2, _⟩ => show (((b.val * 4 + h.val) * 49 + q.val) * 32 + d.val) / 1568 % 4 = h.val; omega
  | ⟨3, _⟩ => show (((b.val * 4 + h.val) * 49 + q.val) * 32 + d.val) / 32 % 49 = q.val; omega
  | ⟨4, _⟩ => show (((b.val * 4 + h.val) * 49 + q.val) * 32 + d.val) % 32 = d.val; omega

/-- Entry (s, b, h, q, d) of the transposed five-axis view of the packed array is column 128 s + 32 h + d of token q
    of window b. -/
theorem slab_at (x0 : (⟨S4096x49x384, .f32⟩ : BufTy).Contents (Elt Ideal)) (s : Fin 3) (b : Fin 4096) (h : Fin 4) (q : Fin 49)
    (d : Fin 32) :
    val_main_v1 (F := Ideal) x0 (ix5 s b h q d)
      = x0 (ix3 b q (⟨128 * s.val + 32 * h.val + d.val, by have := s.isLt; have := h.isLt; have := d.isLt; omega⟩ : Fin 384)) := by
  rw [val_main_v1_apply, val_main_v0_apply]
  refine congrArg x0 (funext fun a => Fin.ext ?_)
  have hs := s.isLt; have hb := b.isLt; have hh := h.isLt; have hq := q.isLt; have hd := d.isLt
  match a with
  | ⟨0, _⟩ => show ((((b.val * 49 + q.val) * 3 + s.val) * 4 + h.val) * 32 + d.val) / 18816 = b.val; omega
  | ⟨1, _⟩ => show ((((b.val * 49 + q.val) * 3 + s.val) * 4 + h.val) * 32 + d.val) / 384 % 49 = q.val; omega
  | ⟨2, _⟩ => show ((((b.val * 49 + q.val) * 3 + s.val) * 4 + h.val) * 32 + d.val) % 384 = 128 * s.val + 32 * h.val + d.val; omega

/-- The query slab: entry (b, h, q, d) is the query column of head h, coordinate d. -/
theorem q_at (x0 : (⟨S4096x49x384, .f32⟩ : BufTy).Contents (Elt Ideal)) (b : Fin 4096) (h : Fin 4) (q : Fin 49) (d : Fin 32) :
    val_main_v3 (F := Ideal) x0 (ix4 b h q d) = x0 (ix3 b q (Cert.Attn.colQ h d)) := by
  rw [val_main_v3_apply, val_main_v2_apply, unit_axis_at]
  refine Eq.trans (congrArg (val_main_v1 (F := Ideal) x0) (?_ : _ = ix5 (0 : Fin 3) b h q d)) ?_
  · funext a; apply Fin.ext
    match a with
    | ⟨0, _⟩ => rfl
    | ⟨1, _⟩ => rfl
    | ⟨2, _⟩ => rfl
    | ⟨3, _⟩ => rfl
    | ⟨4, _⟩ => rfl
  · rw [slab_at]
    refine congrArg x0 (congrArg (ix3 b q) (Fin.ext ?_))
    show 128 * 0 + 32 * h.val + d.val = 32 * h.val + d.val; omega

/-- The key slab: entry (b, h, k, d) is the key column of head h, coordinate d. -/
theorem k_at (x0 : (⟨S4096x49x384, .f32⟩ : BufTy).Contents (Elt Ideal)) (b : Fin 4096) (h : Fin 4) (k : Fin 49) (d : Fin 32) :
    val_main_v7 (F := Ideal) x0 (ix4 b h k d) = x0 (ix3 b k (Cert.Attn.colK h d)) := by
  have e : idx_main_v7 (ix4 b h k d) = ix5 (0 : Fin 1) b h k d := unit_axis_at b h k d
  rw [val_main_v7_apply, val_main_v6_apply, e]
  refine Eq.trans (congrArg (val_main_v1 (F := Ideal) x0) (?_ : _ = ix5 (1 : Fin 3) b h k d)) ?_
  · funext a; apply Fin.ext
    match a with
    | ⟨0, _⟩ => rfl
    | ⟨1, _⟩ => rfl
    | ⟨2, _⟩ => rfl
    | ⟨3, _⟩ => rfl
    | ⟨4, _⟩ => rfl
  · rw [slab_at]
    refine congrArg x0 (congrArg (ix3 b k) (Fin.ext ?_))
    show 128 * 1 + 32 * h.val + d.val = 128 + 32 * h.val + d.val; omega

/-- The value slab: entry (b, h, k, d) is the value column of head h, coordinate d. -/
theorem v_at (x0 : (⟨S4096x49x384, .f32⟩ : BufTy).Contents (Elt Ideal)) (b : Fin 4096) (h : Fin 4) (k : Fin 49) (d : Fin 32) :
    val_main_v9 (F := Ideal) x0 (ix4 b h k d) = x0 (ix3 b k (Cert.Attn.colV h d)) := by
  have e : idx_main_v9 (ix4 b h k d) = ix5 (0 : Fin 1) b h k d := unit_axis_at b h k d
  rw [val_main_v9_apply, val_main_v8_apply, e]
  refine Eq.trans (congrArg (val_main_v1 (F := Ideal) x0) (?_ : _ = ix5 (2 : Fin 3) b h k d)) ?_
  · funext a; apply Fin.ext
    match a with
    | ⟨0, _⟩ => rfl
    | ⟨1, _⟩ => rfl
    | ⟨2, _⟩ => rfl
    | ⟨3, _⟩ => rfl
    | ⟨4, _⟩ => rfl
  · rw [slab_at]
    refine congrArg x0 (congrArg (ix3 b k) (Fin.ext ?_))
    show 128 * 2 + 32 * h.val + d.val = 256 + 32 * h.val + d.val; omega

/-! ## The logit -/

/-- The scaled query: the query entry times the logit scale. -/
theorem qs_at (x0 : (⟨S4096x49x384, .f32⟩ : BufTy).Contents (Elt Ideal)) (b : Fin 4096) (h : Fin 4) (q : Fin 49) (d : Fin 32) :
    val_main_v5 (F := Ideal) x0 (ix4 b h q d)
      = x0 (ix3 b q (Cert.Attn.colQ h d)) * Ideal.ofBits .f32 0x3E3504F3#32 := by
  rw [val_main_v5_apply, q_at, val_main_v4_apply, val_main_cst_apply]
  rfl

/-- The first contraction: query (scaled) against key, summed over the 32 coordinates of the head. -/
theorem qk_at (x0 : (⟨S4096x49x384, .f32⟩ : BufTy).Contents (Elt Ideal)) (b : Fin 4096) (h : Fin 4) (q k : Fin 49) :
    val_main_v10 (F := Ideal) x0 (ix4 b h q k)
      = ∑ d : Fin 32, (x0 (ix3 b q (Cert.Attn.colQ h d)) * Ideal.ofBits .f32 0x3E3504F3#32) * x0 (ix3 b k (Cert.Attn.colK h d)) := by
  rw [val_main_v10_apply]
  refine Finset.sum_congr rfl fun d _ => ?_
  have el : lidx_main_v10 (ix4 b h q k) d = ix4 b h q d := by
    funext a
    match a with
    | ⟨0, _⟩ => rfl
    | ⟨1, _⟩ => rfl
    | ⟨2, _⟩ => rfl
    | ⟨3, _⟩ => rfl
  have er : ridx_main_v10 (ix4 b h q k) d = ix4 b h k d := by
    funext a
    match a with
    | ⟨0, _⟩ => rfl
    | ⟨1, _⟩ => rfl
    | ⟨2, _⟩ => rfl
    | ⟨3, _⟩ => rfl
  rw [el, er, qs_at, k_at]

/-- The per-head bias, broadcast over the windows. -/
theorem mask_at (x1 : (⟨S4x49x49, .f32⟩ : BufTy).Contents (Elt Ideal)) (b : Fin 4096) (h : Fin 4) (q k : Fin 49) :
    val_main_v12 (F := Ideal) x1 (ix4 b h q k) = x1 (ix3 h q k) := by
  rw [val_main_v12_apply, val_main_v11_apply]
  refine congrArg x1 (funext fun a => ?_)
  match a with
  | ⟨0, _⟩ => rfl
  | ⟨1, _⟩ => rfl
  | ⟨2, _⟩ => rfl

/-- The per-position bias, broadcast over the images and the heads. -/
theorem rot_at (x2 : (⟨S64x49x49, .f32⟩ : BufTy).Contents (Elt Ideal)) (g p : Fin 64) (h : Fin 4) (q k : Fin 49) :
    val_main_v16 (F := Ideal) x2 (ix5 g p h q k) = x2 (ix3 p q k) := by
  rw [val_main_v16_apply, val_main_v15_apply]
  refine congrArg x2 (funext fun a => ?_)
  match a with
  | ⟨0, _⟩ => rfl
  | ⟨1, _⟩ => rfl
  | ⟨2, _⟩ => rfl

/-- Window b is window b mod 64 of image b / 64 … -/
theorem window_split (b : Fin 4096) (h : Fin 4) (q k : Fin 49) :
    idx_main_v18 (ix4 b h q k)
      = ix5 (⟨b.val / 64, by have := b.isLt; omega⟩ : Fin 64) (Cert.Attn.pos b) h q k := by
  funext a; apply Fin.ext
  have hb := b.isLt; have hh := h.isLt; have hq := q.isLt; have hk := k.isLt
  match a with
  | ⟨0, _⟩ => show (((b.val * 4 + h.val) * 49 + q.val) * 49 + k.val) / 614656 = b.val / 64; omega
  | ⟨1, _⟩ => show (((b.val * 4 + h.val) * 49 + q.val) * 49 + k.val) / 9604 % 64 = b.val % 64; omega
  | ⟨2, _⟩ => show (((b.val * 4 + h.val) * 49 + q.val) * 49 + k.val) / 2401 % 4 = h.val; omega
  | ⟨3, _⟩ => show (((b.val * 4 + h.val) * 49 + q.val) * 49 + k.val) / 49 % 49 = q.val; omega
  | ⟨4, _⟩ => show (((b.val * 4 + h.val) * 49 + q.val) * 49 + k.val) % 49 = k.val; omega

/-- … and back: 64 (b / 64) + b mod 64 = b. -/
theorem window_merge (b : Fin 4096) (h : Fin 4) (q k : Fin 49) :
    idx_main_v14 (ix5 (⟨b.val / 64, by have := b.isLt; omega⟩ : Fin 64) (Cert.Attn.pos b) h q k) = ix4 b h q k := by
  funext a; apply Fin.ext
  have hb := b.isLt; have hh := h.isLt; have hq := q.isLt; have hk := k.isLt
  match a with
  | ⟨0, _⟩ => show (((((b.val / 64) * 64 + b.val % 64) * 4 + h.val) * 49 + q.val) * 49 + k.val) / 9604 = b.val; omega
  | ⟨1, _⟩ => show (((((b.val / 64) * 64 + b.val % 64) * 4 + h.val) * 49 + q.val) * 49 + k.val) / 2401 % 4 = h.val; omega
  | ⟨2, _⟩ => show (((((b.val / 64) * 64 + b.val % 64) * 4 + h.val) * 49 + q.val) * 49 + k.val) / 49 % 49 = q.val; omega
  | ⟨3, _⟩ => show (((((b.val / 64) * 64 + b.val % 64) * 4 + h.val) * 49 + q.val) * 49 + k.val) % 49 = k.val; omega

/-- The logit stage, entry (b, h, q, k), is the specification's logit. -/
theorem logit_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q k : Fin 49) :
    val_main_v18 (F := Ideal) x0 x1 x2 (ix4 b h q k) = Cert.Attn.logit x0 x1 x2 b h q k := by
  rw [val_main_v18_apply, window_split, val_main_v17_apply, val_main_v14_apply, window_merge, val_main_v13_apply, qk_at,
    mask_at, rot_at]
  rfl

/-! ## The row maximum -/

/-- Inserting the key coordinate on the dropped axis of (b, h, q) gives (b, h, q, k). -/
theorem lift_ix3 (hr : S4096x4x49x49.Reduces [(3 : Fin S4096x4x49x49.rank)] S4096x4x49) (b : Fin 4096) (h : Fin 4) (q : Fin 49)
    (k : Fin (S4096x4x49x49.size 3)) :
    hr.lift (ix3 b h q) k = ix4 b h q (⟨k.val, k.isLt⟩ : Fin 49) := by
  funext c; apply Fin.ext
  fin_cases c <;> rfl

/-- The maximum stage, entry (b, h, q): the running maximum of the row of logits from −∞, then once more against −∞. -/
theorem rowMax_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q : Fin 49) :
    val_main_v21 (F := Ideal) x0 x1 x2 (ix3 b h q) = Cert.Attn.rowMax (fun k => Cert.Attn.logit x0 x1 x2 b h q k) := by
  have hr : S4096x4x49x49.Reduces [(3 : Fin S4096x4x49x49.rank)] S4096x4x49 := by decide
  rw [val_main_v21_apply, val_main_v20_apply, val_main_cst_1_apply]
  unfold val_main_v19
  rw [Host.reduce_eq_fold_single FloatOps.maximumf _ _ _ hr h_S_]
  have hf : (val_main_v18 (F := Ideal) x0 x1 x2 ∘ hr.lift (ix3 b h q)) = fun k : Fin 49 => Cert.Attn.logit x0 x1 x2 b h q k :=
    funext fun k => (congrArg (val_main_v18 (F := Ideal) x0 x1 x2) (lift_ix3 hr b h q k)).trans (logit_at x0 x1 x2 b h q _)
  unfold Cert.Attn.rowMax
  exact congrArg (fun f => max (Ideal.ofBits .f32 0xFF800000#32)
    (Finset.fold max (Ideal.ofBits .f32 0xFF800000#32) f (Finset.univ : Finset (Fin 49)))) hf

/-! ## The softmax weights -/

/-- A row's statistic, broadcast back along the keys, is read at the row. -/
theorem row_of (b : Fin 4096) (h : Fin 4) (q k : Fin 49) : idx_main_v22 (idx_main_v23 (ix4 b h q k)) = ix3 b h q := by
  funext a
  match a with
  | ⟨0, _⟩ => rfl
  | ⟨1, _⟩ => rfl
  | ⟨2, _⟩ => rfl

/-- The exponential stage, entry (b, h, q, k): the exponential of the logit less the row's maximum. -/
theorem exp_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q k : Fin 49) :
    val_main_v25 (F := Ideal) x0 x1 x2 (ix4 b h q k) = Cert.Attn.expShift (fun k => Cert.Attn.logit x0 x1 x2 b h q k) k := by
  rw [val_main_v25_apply, val_main_v24_apply, logit_at, val_main_v23_apply, val_main_v22_apply, row_of, rowMax_at]
  rfl

/-- The sum stage, entry (b, h, q): the sum of the row's exponentials (the initial word is zero). -/
theorem sum_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q : Fin 49) :
    val_main_v26 (F := Ideal) x0 x1 x2 (ix3 b h q)
      = ∑ k : Fin 49, Cert.Attn.expShift (fun k => Cert.Attn.logit x0 x1 x2 b h q k) k := by
  rw [val_main_v26_apply, val_main_cst_2_apply, Ideal.ofBits_def, Ideal.ofBits_zero_f32, zero_add]
  refine Finset.sum_congr rfl fun k _ => ?_
  have e : idx_main_v26 (ix3 b h q) k = ix4 b h q k := by
    funext a
    match a with
    | ⟨0, _⟩ => rfl
    | ⟨1, _⟩ => rfl
    | ⟨2, _⟩ => rfl
    | ⟨3, _⟩ => rfl
  rw [e, exp_at]

/-- The quotient stage, entry (b, h, q, k): the softmax weight of key k. -/
theorem weight_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q k : Fin 49) :
    val_main_v29 (F := Ideal) x0 x1 x2 (ix4 b h q k) = Cert.Attn.weight (fun k => Cert.Attn.logit x0 x1 x2 b h q k) k := by
  have e : idx_main_v27 (idx_main_v28 (ix4 b h q k)) = ix3 b h q := row_of b h q k
  rw [val_main_v29_apply, exp_at, val_main_v28_apply, val_main_v27_apply, e, sum_at]
  rfl

/-! ## The output -/

/-- The second contraction, entry (b, h, q, d): the row's weights dotted with the value column of head h, coordinate d. -/
theorem out_at (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) (b : Fin 4096) (h : Fin 4) (q : Fin 49) (d : Fin 32) :
    val_main_v30 (F := Ideal) x0 x1 x2 (ix4 b h q d) = Cert.Attn.out x0 x1 x2 b h q d := by
  rw [val_main_v30_apply]
  unfold Cert.Attn.out Cert.Attn.attend
  refine Finset.sum_congr rfl fun k _ => ?_
  have el : lidx_main_v30 (ix4 b h q d) k = ix4 b h q k := by
    funext a
    match a with
    | ⟨0, _⟩ => rfl
    | ⟨1, _⟩ => rfl
    | ⟨2, _⟩ => rfl
    | ⟨3, _⟩ => rfl
  have er : ridx_main_v30 (ix4 b h q d) k = ix4 b h k d := by
    funext a
    match a with
    | ⟨0, _⟩ => rfl
    | ⟨1, _⟩ => rfl
    | ⟨2, _⟩ => rfl
    | ⟨3, _⟩ => rfl
  rw [el, er, weight_at, v_at]

/-- Column c of token q of window b in the result is coordinate c mod 32 of head c / 32: the heads' outputs lie side by
    side, 32 columns each. -/
theorem head_split (b : Fin 4096) (q : Fin 49) (c : Fin 128) :
    idx_main_v31 (idx_main_v32 (ix3 b q c)) = ix4 b (Cert.Attn.headOf c) q (Cert.Attn.coordOf c) := by
  funext a; apply Fin.ext
  have hb := b.isLt; have hq := q.isLt; have hc := c.isLt
  match a with
  | ⟨0, _⟩ => show ((b.val * 49 + q.val) * 128 + c.val) / 6272 = b.val; omega
  | ⟨1, _⟩ => show ((b.val * 49 + q.val) * 128 + c.val) / 32 % 4 = c.val / 32; omega
  | ⟨2, _⟩ => show ((b.val * 49 + q.val) * 128 + c.val) / 128 % 49 = q.val; omega
  | ⟨3, _⟩ => show ((b.val * 49 + q.val) * 128 + c.val) % 32 = c.val % 32; omega

/-- THE REFERENCE PROGRAM'S RESULT is the windowed attention of the specification, as one function of the three
    argument arrays. -/
theorem ref_is_result (x0 : (⟨S4096x49x384, .f32⟩ : BufTy).Contents (Elt Ideal)) (x1 : (⟨S4x49x49, .f32⟩ : BufTy).Contents (Elt Ideal))
    (x2 : (⟨S64x49x49, .f32⟩ : BufTy).Contents (Elt Ideal)) :
    Cert.ReferenceIdeal.Read.val_main_v32 (F := Ideal) x0 x1 x2 = Cert.Attn.result x0 x1 x2 := by
  funext i
  obtain ⟨b, q, c, rfl⟩ : ∃ b q c, i = ix3 b q c := ⟨i 0, i 1, i 2, eq_ix3 i⟩
  rw [Cert.Attn.result_apply, val_main_v32_apply, val_main_v31_apply, head_split, out_at]

end Cert.ReferenceIdeal.RefValue

end
-- ==== Proof.lean ====
/-
  Windowed multi-head attention with a shift mask: the kernel against its plain reference, on the extended reals.

  Both programs compute, for each of 4096 windows of 49 tokens and each of 4 heads of 32 coordinates, the logits
  (q · c) kᵀ + head bias + window-position bias, their softmax along the keys (each logit less the row's maximum,
  exponentiated, divided by the row's sum) and the weights times the values; the kernel does it 64 windows at a
  grid point, head by head on 32-column slices of one packed [64, 49, 384] block, and lays the heads side by side,
  while the reference reshapes and transposes the whole packed array into per-head tensors and back. At the ideal
  instance a change of float format is the identity, a matrix product into a zero accumulator and the host's
  contraction are the same finite sum, and a vector reduction and the host's reduction are the same fold or sum, so
  the two programs apply the same operations in the same order to the same entries: both result arrays are the one
  function `Cert.Attn.result` of the three float arguments (Proof/Spec.lean), entry by entry, and no algebraic law
  and no finiteness of the inputs is used.

  The kernel's side: Proof/Layout.lean and Proof/Products.lean read the layout operations, the reductions and the
  two batched products at an index; Proof/Head.lean reads one head's block; Proof/Block.lean reads what a grid point
  stores; Proof/Whole.lean tiles the 64 blocks into the array. The reference's side: Proof/RefValue.lean reads its
  stages at explicit coordinates. The three frames are the generated ones (the reference's is its generated run with
  the result dropped); the idealization rewrote nothing, so `preserves` is trivial.
-/
import proofs.«179546_j43662637531519_1_alg».proof.Defs
import proofs.«179546_j43662637531519_1_alg».proof.Proof.Gen.Kernel
import proofs.«179546_j43662637531519_1_alg».proof.Proof.Gen.Kernel.Skeleton
import proofs.«179546_j43662637531519_1_alg».proof.Proof.Gen.Kernel.Launch
import proofs.«179546_j43662637531519_1_alg».proof.Proof.Gen.Kernel.Points
import proofs.«179546_j43662637531519_1_alg».proof.Proof.Gen.Kernel.Frame
import proofs.«179546_j43662637531519_1_alg».proof.Proof.Gen.KernelIdeal
import proofs.«179546_j43662637531519_1_alg».proof.Proof.Gen.KernelIdeal.Skeleton
import proofs.«179546_j43662637531519_1_alg».proof.Proof.Gen.KernelIdeal.Launch
import proofs.«179546_j43662637531519_1_alg».proof.Proof.Gen.KernelIdeal.Points
import proofs.«179546_j43662637531519_1_alg».proof.Proof.Gen.KernelIdeal.Frame
import proofs.«179546_j43662637531519_1_alg».proof.Proof.Gen.ReferenceIdeal
import proofs.«179546_j43662637531519_1_alg».proof.Proof.Gen.Pre_finite_inputs
import proofs.«179546_j43662637531519_1_alg».proof.Proof.Gen.KernelIdeal.Value
import proofs.«179546_j43662637531519_1_alg».proof.Proof.Gen.ReferenceIdeal.Run
import proofs.«179546_j43662637531519_1_alg».proof.Proof.Gen.ReferenceIdeal.Read
import proofs.«179546_j43662637531519_1_alg».proof.Proof.Whole
import proofs.«179546_j43662637531519_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged (the generated frame). -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the attention function of
    the three float arguments: the kernel by its 64 blocks (`Whole.run`), the reference stage by stage
    (`RefValue.ref_is_result`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_is_result,
    (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
